-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x16 : Shape := ⟨2, ![4096, 16]⟩
abbrev S16 : Shape := ⟨1, ![16]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S16 : S_.BroadcastsInDim S16 (![] : Fin 0 → Fin S16.rank)
  reducesTo_S16_S_d0 : S16.ReducesTo [0] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096x16 .f32) (main_arg3 : FVec F S16 .f32) (main_arg4 : FVec F S16x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096x16 : Shape := ⟨2, ![4096, 16]⟩
abbrev S16 : Shape := ⟨1, ![16]⟩
abbrev S16x4096 : Shape := ⟨2, ![16, 4096]⟩
abbrev S1x16 : Shape := ⟨2, ![1, 16]⟩
abbrev S1024x2048 : Shape := ⟨2, ![1024, 2048]⟩
abbrev S1024x16 : Shape := ⟨2, ![1024, 16]⟩
abbrev S16x2048 : Shape := ⟨2, ![16, 2048]⟩
abbrev S2048x1024 : Shape := ⟨2, ![2048, 1024]⟩
abbrev S1024x1024 : Shape := ⟨2, ![1024, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x16, .f32⟩
  | .hbm, ⟨3, _⟩ => ⟨S16, .f32⟩
  | .hbm, ⟨4, _⟩ => ⟨S16x4096, .f32⟩
  | .hbm, ⟨5, _⟩ => ⟨S1x16, .f32⟩
  | .hbm, ⟨6, _⟩ => ⟨S4096x4096, .bf16⟩
  | .hbm, ⟨7, _⟩ => ⟨S8192x4096, .bf16⟩
  | .hbm, ⟨8, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S1024x16, .f32⟩
  | .local _ .vmem, ⟨3, _⟩ => ⟨S1024x16, .f32⟩
  | .local _ .vmem, ⟨4, _⟩ => ⟨S1x16, .f32⟩
  | .local _ .vmem, ⟨5, _⟩ => ⟨S16x2048, .f32⟩
  | .local _ .vmem, ⟨6, _⟩ => ⟨S16x2048, .f32⟩
  | .local _ .vmem, ⟨7, _⟩ => ⟨S1024x2048, .bf16⟩
  | .local _ .vmem, ⟨8, _⟩ => ⟨S1024x2048, .bf16⟩
  | .local _ .vmem, ⟨9, _⟩ => ⟨S2048x1024, .bf16⟩
  | .local _ .vmem, ⟨10, _⟩ => ⟨S2048x1024, .bf16⟩
  | .local _ .vmem, ⟨11, _⟩ => ⟨S1024x1024, .bf16⟩
  | .local _ .vmem, ⟨12, _⟩ => ⟨S1024x1024, .bf16⟩
  | .local _ .vmem, ⟨13, _⟩ => ⟨S2048x1024, .f32⟩
  | .local _ .vmem, ⟨14, _⟩ => ⟨S2048x1024, .f32⟩
  | .local _ .vmem, ⟨15, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S16_S1x16 : S16.ShapeCasts S1x16
  inb_S1024x16_S1024x16_0_0 : ∀ a, (![0, 0] : Fin 2 → Nat) a + S1024x16.size a ≤ S1024x16.size a
  h_S1024x16 : 0 < S1024x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  inb_S16x2048_S16x2048_0_0 : ∀ a, (![0, 0] : Fin 2 → Nat) a + S16x2048.size a ≤ S16x2048.size a
  h_S16x2048 : 0 < S16x2048.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x16_S16x2048_S1024x2048_1_0_0_1_n_n_wf : DotDims.WF S1024x16 S16x2048 S1024x2048 [1] [0] [0] [1] [] []
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x4096.size a
  hwx0_0 : ∀ i : grid0.Coords, EltTy.bits .f32 = 32 ∨ (Rect.block (s := S4096x4096) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S16x4096.size a
  hwx0_3 : ∀ i : grid0.Coords, EltTy.bits .f32 = 32 ∨ (Rect.block (s := S16x4096) S16x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S4096x4096.size a
  hwx0_4 : ∀ i : grid0.Coords, EltTy.bits .bf16 = 32 ∨ (Rect.block (s := S4096x4096) S1024x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .bf16 = 32 ∨ (Rect.block (s := S8192x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S8192x4096.size a
  hwx1_2 : ∀ i : grid1.Coords, EltTy.bits .f32 = 32 ∨ (Rect.block (s := S8192x4096) S2048x1024.size (cc1_transform_2 i) (hinb1_2 i)).WholeWords (EltTy.packing .f32)

variable [Facts₀]

def dot_S1024x16_S16x2048_S1024x2048_1_0_0_1_n_n : DotDims S1024x16 S16x2048 S1024x2048 where
  lhsContracting := [1]
  rhsContracting := [0]
  lhsNonContracting := [0]
  rhsNonContracting := [1]
  lhsBatch := []
  rhsBatch := []
  wf := dot_S1024x16_S16x2048_S1024x2048_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x16 : Shape := ⟨2, ![4096, 16]⟩
abbrev S16 : Shape := ⟨1, ![16]⟩
abbrev S16x4096 : Shape := ⟨2, ![16, 4096]⟩
abbrev S1x16 : Shape := ⟨2, ![1, 16]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x16, .f32⟩
  | .hbm, ⟨3, _⟩ => ⟨S16, .f32⟩
  | .hbm, ⟨4, _⟩ => ⟨S16x4096, .f32⟩
  | .hbm, ⟨5, _⟩ => ⟨S1x16, .f32⟩
  | .hbm, ⟨6, _⟩ => ⟨S4096x16, .f32⟩
  | .hbm, ⟨7, _⟩ => ⟨S4096x16, .f32⟩
  | .hbm, ⟨8, _⟩ => ⟨S4096x4096, .f32⟩
  | .hbm, ⟨9, _⟩ => ⟨S4096x4096, .f32⟩
  | .hbm, ⟨10, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  dot_S4096x16_S16x4096_S4096x4096_1_0_0_1_n_n_wf : DotDims.WF S4096x16 S16x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KRegion0.lean ====
/-
  The first kernel region: the merged weight, tile by tile.

  The grid has 4 × 2 points; at point (i, j) the body reads the tile (i, j) of the original weight (1024 × 2048), the
  row block i of `u` (1024 × 16), the whole row of scales (1 × 16) and the column block j of `vt` (16 × 2048), and
  stores ONE value into the whole output tile: the tile of the original weight plus the product of the scaled block of
  `u` with the block of `vt`. The body keeps nothing between points, so what a point leaves in the output's staging
  buffer is a function of the four input blocks alone, and the region's invariant is the untouched rest.
  Everything is stated at the contents `V` the region is entered with, a parameter.
-/
import proofs.«139498_j1829656068759_2_alg».proof.Proof.Gen.Kernel.Launch
import proofs.«139498_j1829656068759_2_alg».proof.Proof.Gen.Kernel.Skeleton
import proofs.«139498_j1829656068759_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every point, whether the pipeline fetched it there or the
    block index did not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every point, whether the pipeline fetched it there or the
    block index did not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every point, whether the pipeline fetched it there or the
    block index did not move. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the array at every point, whether the pipeline fetched it there or the
    block index did not move. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev rW0 : Rect S1024x2048 := Rect.unit (s := S1024x2048) ![0, 0] S1024x2048.size inb_S1024x2048_S1024x2048_0_0
abbrev rU0 : Rect S1024x16 := Rect.unit (s := S1024x16) ![0, 0] S1024x16.size inb_S1024x16_S1024x16_0_0
abbrev rS0 : Rect S1x16 := Rect.unit (s := S1x16) ![0, 0] S1x16.size inb_S1x16_S1x16_0_0
abbrev rV0 : Rect S16x2048 := Rect.unit (s := S16x2048) ![0, 0] S16x2048.size inb_S16x2048_S16x2048_0_0

/-- What the body leaves in the output tile's buffer, from the four input blocks: its one store, of the whole tile. -/
def out0_4 (x0 : Vec F S1024x2048 .f32) (x1 : Vec F S1024x16 .f32) (x2 : Vec F S1x16 .f32) (x3 : Vec F S16x2048 .f32) : Vec F S1024x2048 .bf16 :=
  View.canon [⟨rW0, k0_pay1 (View.ld x1 rU0) (View.ld x2 rS0) (View.ld x3 rV0) (View.ld x0 rW0)⟩]

/-- The one store covers the buffer. -/
theorem cover0_4 (p0 : Vec F S1024x2048 .bf16) (y : S1024x2048.Idx) :
    ∃ pc ∈ ([⟨rW0, p0⟩] : List (View.Piece (Elt F) S1024x2048 .bf16)), y ∈ pc.1.set :=
  View.cover_of_tiled [⟨rW0, p0⟩] S1024x2048.size (by rfl) y

set_option maxHeartbeats 1000000 in
/-- The body on whole staging buffers: the inputs' at known contents, the output's at anything; it returns the inputs' as
    they were and the output's at `out0_4` of the inputs. -/
theorem sound_kernel0 (c : Dev nD) (E : Set ℕ) (i : grid0.Coords) (arg2 : Memref sig .tc .vmem S1024x2048 .f32) (harg2 : arg2.IsWhole) (arg3 : Memref sig .tc .vmem S1024x16 .f32) (harg3 : arg3.IsWhole)
    (arg4 : Memref sig .tc .vmem S1x16 .f32) (harg4 : arg4.IsWhole) (arg5 : Memref sig .tc .vmem S16x2048 .f32) (harg5 : arg5.IsWhole) (arg6 : Memref sig .tc .vmem S1024x2048 .bf16) (harg6 : arg6.IsWhole)
    (x0 : Vec F S1024x2048 .f32) (x1 : Vec F S1024x16 .f32) (x2 : Vec F S1x16 .f32) (x3 : Vec F S16x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out0_4 x0 x1 x2 x3)) -∗ K ⟨⟩))
      ⊢ wp frame (wpE (defs₀ (F := F)) Variants.none c none) E (cc0__build_w_kernel i arg2 harg2 arg3 harg3 arg4 harg4 arg5 harg5 arg6 harg6) K := by
  simp only [cc0__build_w_kernel_eq_skeleton]; unfold cc0__build_w_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The region's proof data -/

/-- The arrays as the region finds them; after the body each input's buffer at its block and the output's at
    `out0_4` of the four input blocks; the invariant the untouched rest (the scoped buffers no window stages and the
    generator register); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1Base.lean ====
/-
  The second kernel region, first part: what its runs are stated over.

  The grid has 4 × 4 × 4 points (i, j, k), the last axis the contracted one. At every point the body adds the product of
  the (i, k) block of the input (2048 × 1024) with the (k, j) block of the merged weight (1024 × 1024) to a scratch
  accumulator (2048 × 1024) that it keeps between points; at k = 0 it first clears the accumulator, and at k = 3 it
  copies the accumulator into the output tile (i, j). The two tests depend on the point only through k, and the
  points are numbered with k fastest, so they are decided by the point's number modulo 4. The output window is not
  touched, and not written back, at the points with k < 3.
-/
import proofs.«139498_j1829656068759_2_alg».proof.Proof.Gen.Kernel.Launch
import proofs.«139498_j1829656068759_2_alg».proof.Proof.Gen.Kernel.Skeleton
import proofs.«139498_j1829656068759_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two tests, decided over the grid -/

/-- "This point opens a reduction" (k = 0), as the body computes it. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This point closes a reduction" (k = 3), as the body computes it. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The buffers the body is called with -/

abbrev VO1_2 : View sig .tc .vmem S2048x1024 .f32 := (Memref.whole cc1_stg2_0 : Memref sig .tc .vmem S2048x1024 .f32).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1024 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S2048x1024 .f32 := Memref.whole cc1_scratch0
abbrev VS1 : View sig .tc .vmem S2048x1024 .f32 := scM1.view

/-- The untouched rest of the region with the accumulator singled out: every other scoped buffer that is no staging
    buffer of this region at anything, the accumulator at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Hand

end
-- ==== Proof.KRegion1RunA.lean ====
/-
  The second kernel region: the body run through at one kind of point.
-/
import proofs.«139498_j1829656068759_2_alg».proof.Proof.KRegion1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point that opens a reduction (the first of the four steps along the contracted axis): the scratch, at
    anything, is stored whole with zeros and then with the first block product; the output's buffer is not touched. The
    pieces the scratch ends with are found by running the body. -/
noncomputable def kernelRun1_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i)
    (x0 : Vec F S2048x1024 .bf16) (x1 : Vec F S1024x1024 .bf16) :
    Σ' (L2 : List (View.Piece (Elt F) S2048x1024 .f32)), { LS : List (View.Piece (Elt F) S2048x1024 .f32) //
      ∀ (xi2 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Hand

end
-- ==== Proof.KRegion1RunB.lean ====
/-
  The second kernel region: the body run through at one kind of point.
-/
import proofs.«139498_j1829656068759_2_alg».proof.Proof.KRegion1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a middle step of a reduction: the scratch, at what the step before left, is stored whole with that plus
    this step's block product; the output's buffer is not touched. -/
noncomputable def kernelRun1_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i)
    (x0 : Vec F S2048x1024 .bf16) (x1 : Vec F S1024x1024 .bf16) (xs : Vec F S2048x1024 .f32) :
    Σ' (L2 : List (View.Piece (Elt F) S2048x1024 .f32)), { LS : List (View.Piece (Elt F) S2048x1024 .f32) //
      ∀ (xi2 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Hand

end
-- ==== Proof.KRegion1RunC.lean ====
/-
  The second kernel region: the body run through at one kind of point.
-/
import proofs.«139498_j1829656068759_2_alg».proof.Proof.KRegion1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at the last step of a reduction: the scratch is stored whole with what the step before left plus this step's
    block product, and the output's buffer, at anything, is stored whole with the scratch's new contents. -/
noncomputable def kernelRun1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .bf16) (x1 : Vec F S1024x1024 .bf16) (xs : Vec F S2048x1024 .f32) :
    Σ' (L2 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Hand

end
-- ==== Proof.KRegion1Inv.lean ====
/-
  The second kernel region: its invariant with the accumulator singled out.

  Between two points the kernel may count on its accumulator; the other scoped buffers of the core that this region does
  not stage (the first region's staging buffers) and the generator register ride along untouched.
-/
import proofs.«139498_j1829656068759_2_alg».proof.Proof.KRegion1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What rides along: the first region's staging buffers at anything and the generator register at some state. -/
def PhiRest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ r, prngReg c r))

/-- The invariant with the accumulator's part `P` in its place. -/
def PhiAcc1 (c : Dev nD) (P : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ P) ∗ (∃ r, prngReg c r))

/-- The region's untouched rest is the invariant with the accumulator at anything. -/
theorem PhiA1_acc (c : Dev nD) :
    (Pipeline.ΦA spec1 c : sProp 𝕄) = PhiAcc1 c iprop(∃ d, owns (c : Thread nD τ) scM1 fullShare d) := by
  rw [PhiA1_eq]; rfl

theorem PhiAcc1_elim (c : Dev nD) (P : sProp 𝕄) : PhiAcc1 c P ⊢ iprop(P ∗ PhiRest1 c) := by
  unfold PhiAcc1 PhiRest1
  iintro ⟨⟨H1, H2, H3, H4, H5, H6, H7, H8, H9, HP⟩, Hg⟩
  isplitl [HP]; · iexact HP
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact Hg

theorem PhiAcc1_intro (c : Dev nD) (P : sProp 𝕄) : iprop(P ∗ PhiRest1 c) ⊢ PhiAcc1 c P := by
  unfold PhiAcc1 PhiRest1
  iintro ⟨HP, H1, H2, H3, H4, H5, H6, H7, H8, H9, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HP

end Cert.Kernel.Hand

end
-- ==== Proof.KRegion1.lean ====
/-
  The second kernel region, last part: the accumulation, point by point, and the body obligation.

  After the body at point number n the accumulator holds: at a point that opens a reduction (n ≡ 0 mod 4) the first block
  product over zeros; otherwise what the point before left plus this point's block product. The output's staging buffer
  is stored only at the points that close a reduction (n ≡ 3 mod 4), with the accumulator's contents. The region's
  invariant between points is the untouched rest with the accumulator at exactly these contents.
-/
import proofs.«139498_j1829656068759_2_alg».proof.Proof.KRegion1RunC
import proofs.«139498_j1829656068759_2_alg».proof.Proof.KRegion1Inv

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## What each kind of point leaves -/

/-- A point that does not close a reduction leaves the output's buffer alone: a placeholder nothing consults. -/
def out1_idle : Vec F S2048x1024 .f32 := VO1_2.read (Elt F) VO1_2.junk

theorem scover1_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i) (x0 : Vec F S2048x1024 .bf16) (x1 : Vec F S1024x1024 .bf16) (y : S2048x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S2048x1024.size (by sl_kernel_rfl) y
/-- The accumulator after a point that opens a reduction. -/
def sout1_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i) (x0 : Vec F S2048x1024 .bf16) (x1 : Vec F S1024x1024 .bf16) : Vec F S2048x1024 .f32 :=
  VS1.read (Elt F) (VS1.writes (Elt F) VS1.junk (kernelRun1_A c i arg3 harg3 arg4 harg4 arg5 harg5 arg6 harg6 hc0 hc1 x0 x1).2.1)

theorem scover1_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i) (x0 : Vec F S2048x1024 .bf16) (x1 : Vec F S1024x1024 .bf16) (xs : Vec F S2048x1024 .f32) (y : S2048x1024.Idx) :
    ∃ pc ∈ (kernelRun1_B c i arg3 harg3 arg4 harg4 arg5 harg5 arg6 harg6 hc0 hc1 x0 x1 xs).2.1, y ∈ pc.1.set :=
  View.cover_of_tiledL (kernelRun1_B c i arg3 harg3 arg4 harg4 arg5 harg5 arg6 harg6 hc0 hc1 x0 x1 xs).2.1 S2048x1024.size (by sl_kernel_rfl) y
/-- The accumulator after a middle point, over what the point before left. -/
def sout1_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i) (x0 : Vec F S2048x1024 .bf16) (x1 : Vec F S1024x1024 .bf16) (xs : Vec F S2048x1024 .f32) : Vec F S2048x1024 .f32 :=
  VS1.read (Elt F) (VS1.writes (Elt F) VS1.junk (kernelRun1_B c i arg3 harg3 arg4 harg4 arg5 harg5 arg6 harg6 hc0 hc1 x0 x1 xs).2.1)

theorem scover1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i) (x0 : Vec F S2048x1024 .bf16) (x1 : Vec F S1024x1024 .bf16) (xs : Vec F S2048x1024 .f32) (y : S2048x1024.Idx) :
    ∃ pc ∈ (kernelRun1_C c i arg3 harg3 arg4 harg4 arg5 harg5 arg6 harg6 hc0 hc1 x0 x1 xs).2.1, y ∈ pc.1.set :=
  View.cover_of_tiledL (kernelRun1_C c i arg3 harg3 arg4 harg4 arg5 harg5 arg6 harg6 hc0 hc1 x0 x1 xs).2.1 S2048x1024.size (by sl_kernel_rfl) y
/-- The accumulator after a point that closes a reduction. -/
def sout1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i) (x0 : Vec F S2048x1024 .bf16) (x1 : Vec F S1024x1024 .bf16) (xs : Vec F S2048x1024 .f32) : Vec F S2048x1024 .f32 :=
  VS1.read (Elt F) (VS1.writes (Elt F) VS1.junk (kernelRun1_C c i arg3 harg3 arg4 harg4 arg5 harg5 arg6 harg6 hc0 hc1 x0 x1 xs).2.1)
theorem cover1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i) (x0 : Vec F S2048x1024 .bf16) (x1 : Vec F S1024x1024 .bf16) (xs : Vec F S2048x1024 .f32) (y : S2048x1024.Idx) :
    ∃ pc ∈ (kernelRun1_C c i arg3 harg3 arg4 harg4 arg5 harg5 arg6 harg6 hc0 hc1 x0 x1 xs).1, y ∈ pc.1.set :=
  View.cover_of_tiledL (kernelRun1_C c i arg3 harg3 arg4 harg4 arg5 harg5 arg6 harg6 hc0 hc1 x0 x1 xs).1 S2048x1024.size (by sl_kernel_rfl) y
/-- The output's buffer after a point that closes a reduction. -/
def out1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i) (x0 : Vec F S2048x1024 .bf16) (x1 : Vec F S1024x1024 .bf16) (xs : Vec F S2048x1024 .f32) : Vec F S2048x1024 .f32 :=
  VO1_2.read (Elt F) (VO1_2.writes (Elt F) VO1_2.junk (kernelRun1_C c i arg3 harg3 arg4 harg4 arg5 harg5 arg6 harg6 hc0 hc1 x0 x1 xs).1)

section Region1
variable (V : (c : Dev nD) → (b : Ref sig .tc) → Buf (Elt F) ((c : Thread nD τ).loc b))

/-- THE ACCUMULATION: what the output's staging buffer and the accumulator hold after the body at point number `n`. -/
def outsAt1 (c : Dev nD) : (n : ℕ) → n < cfg1.N → Vec F S2048x1024 .f32 × Vec F S2048x1024 .f32
  | 0, hn => (out1_idle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_idle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_idle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_idle, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_idle, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before point number `n`: before the first point the untouched rest; afterwards the same with the accumulator
    at what the point before left. -/
def PhiS1 (c : Dev nD) : (n : ℕ) → n ≤ cfg1.N → sProp 𝕄
  | 0, _ => Pipeline.ΦA spec1 c
  | n + 1, hn => PhiAcc1 c (owns (c : Thread nD τ) scM1 fullShare ((outsAt1 V c n hn).2))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiAcc1 c (owns (c : Thread nD τ) scM1 fullShare ((outsAt1 V c n hn).2)) := rfl
theorem PhiS1_pos (c : Dev nD) (n : ℕ) (h : n ≤ cfg1.N) (hz : n ≠ 0) :
    PhiS1 V c n h = PhiAcc1 c (owns (c : Thread nD τ) scM1 fullShare ((outsAt1 V c (n - 1) (by omega)).2)) := by
  cases n with
  | zero => exact absurd rfl hz
  | succ n => rfl

/-- The region's proof data: the arrays as the region finds them; each input's buffer at its block; the output's and the
    accumulator's contents by the accumulation; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

end Region1

section Region1b
variable (V : (c : Dev nD) → (b : Ref sig .tc) → Buf (Elt F) ((c : Thread nD τ).loc b))

set_option maxHeartbeats 4800000 in
/-- The body at any point: the point's number modulo 4 says which kind of point it is; the invariant hands the body the
    accumulator at what the point before left (at anything before the first point) and takes it back at this point's
    contents; the inputs' buffers hold their blocks; the output's buffer is stored only where a reduction closes. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_acc]
      iintro ⟨HΦ, Ho, ⟨%d0, H0⟩, ⟨%d1, H1⟩, ⟨%d2, H2⟩⟩
      ihave HΦ' := PhiAcc1_elim c _ $$ HΦ
      icases HΦ' with ⟨HS, HR⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR]
      · iapply PhiAcc1_intro c _
        isplitl [HS]
        · unfold owns; iexists _; isplitr
          swap; · iexact HS
          ipureintro; exact View.read_writes_of_cover _ _ _ _ _ (scover1_A c _ _ _ _ _ _ _ _ _ _ _ _ _)
        iexact HR
      isplitl [Ho]; · iexact Ho
      isplitl [H0]; · iexact H0
      isplitl [H1]; · iexact H1
      iexists _; iexact H2
    · rw [PhiS1_castSucc V c t, PhiS1_pos V c _ _ hz]
      iintro ⟨HΦ, Ho, ⟨%d0, H0⟩, ⟨%d1, H1⟩, ⟨%d2, H2⟩⟩
      ihave HΦ' := PhiAcc1_elim c _ $$ HΦ
      icases HΦ' with ⟨HS, HR⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR]
      · iapply PhiAcc1_intro c _
        isplitl [HS]
        · unfold owns; iexists _; isplitr
          swap; · iexact HS
          ipureintro; exact View.read_writes_of_cover _ _ _ _ _ (scover1_A c _ _ _ _ _ _ _ _ _ _ _ _ _)
        iexact HR
      isplitl [Ho]; · iexact Ho
      isplitl [H0]; · iexact H0
      isplitl [H1]; · iexact H1
      iexists _; iexact H2
  · have hz : t.val ≠ 0 := by intro h; rw [h] at h0; exact h0 (Nat.zero_mod _)
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨HΦ, Ho, ⟨%d0, H0⟩, ⟨%d1, H1⟩, ⟨%d2, H2⟩⟩
      ihave HΦ' := PhiAcc1_elim c _ $$ HΦ
      icases HΦ' with ⟨HS, HR⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR]
      · iapply PhiAcc1_intro c _
        isplitl [HS]
        · unfold owns; iexists _; isplitr
          swap; · iexact HS
          ipureintro; exact View.read_writes_of_cover _ _ _ _ _ (scover1_C c _ _ _ _ _ _ _ _ _ _ _ _ _ _)
        iexact HR
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨HΦ, Ho, ⟨%d0, H0⟩, ⟨%d1, H1⟩, ⟨%d2, H2⟩⟩
      ihave HΦ' := PhiAcc1_elim c _ $$ HΦ
      icases HΦ' with ⟨HS, HR⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR]
      · iapply PhiAcc1_intro c _
        isplitl [HS]
        · unfold owns; iexists _; isplitr
          swap; · iexact HS
          ipureintro; exact View.read_writes_of_cover _ _ _ _ _ (scover1_B c _ _ _ _ _ _ _ _ _ _ _ _ _ _)
        iexact HR
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the untouched rest back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_acc]
  iintro H
  ihave H' := PhiAcc1_elim c _ $$ H
  icases H' with ⟨HS, HR⟩
  iapply PhiAcc1_intro c _
  isplitl [HS]; · iexists _; iexact HS
  iexact HR

end Region1b

end Cert.Kernel.Hand

end
-- ==== Proof.KRun.lean ====
/-
  The whole run: two host steps and two kernel regions, in order.

  The scales are first laid out as a row; the first region writes the merged weight; the input is then converted to
  the narrow format; the second region writes the product. The buffers' contents at each boundary are a fold from the
  launch memory: a host step's result where it writes, a region's output array at what its write-backs leave, every
  other buffer as it was. No step writes an argument array, so each ends as launched, and the result array ends at
  what the second region's write-backs leave.
-/
import proofs.«139498_j1829656068759_2_alg».proof.Proof.KRegion0
import proofs.«139498_j1829656068759_2_alg».proof.Proof.KRegion1
import proofs.«139498_j1829656068759_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (cellOf)

variable (m : (ℓ : Loc nD τ sig) → Buf (Elt F) ℓ)

/-! ## The buffer contents at each boundary -/

/-- Core `c`'s buffers at launch. -/
abbrev W0 : Dev nD → Valuation τ sig (Elt F) := fun c b => m (c, b)
/-- After the scales are laid out as a row (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the input is converted (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## No step writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := (W2_arr m c 0).trans (((dat0 (V1 m) c).arrAt_in 0 rfl _).trans (A_eq0 (V1 m) c 0))
    _ = W0 m c (Proc.devRef .tc main_arg1) := StableHlo.after_of_writes_sub hostOps0 _ hostOps0_writes (r := main_arg1) (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_writes_sub hostOps0 _ hostOps0_writes (r := main_arg2) (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := (W2_arr m c 3).trans (((dat0 (V1 m) c).arrAt_in 3 rfl _).trans (A_eq0 (V1 m) c 3))
    _ = W0 m c (Proc.devRef .tc main_arg4) := StableHlo.after_of_writes_sub hostOps0 _ hostOps0_writes (r := main_arg4) (by decide)
    _ = m ((c : Thread nD τ).loc main_arg4) := rfl

/-! ## The proof data family and the thread state -/

abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every step: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as steps -/

set_option backward.isDefEq.respectTransparency.types false in
/-- The first region: entered from every unscoped buffer at `W1`, left at `W2`. Its arrays are split out of the unscoped
    buffers and put back at the exit contents; the generator register goes into the invariant and comes out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`. Its invariant starts as the untouched rest
    and ends giving it back, the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m 1 c).Φ 0 := hin1 (V3 m) c
    unfold Pipeline.ΦA at h
    iintro ⟨Hp, -, Hr⟩
    iapply h
    isplitl [Hr]; · iexact Hr
    iexact Hp
  hout c := by
    have h : (pdats m 1 c).Φ (Fin.last _) ⊢ (Pipeline.ΦA spec1 c : sProp 𝕄) := hout1 (V3 m) c
    unfold Pipeline.ΦA at h
    rw [Pipeline.ownSems0_none]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution ends, nothing faulting, with the result array at what the
    second region's write-backs leave and every argument array as launched. -/
theorem run_main (ρ : Dev nD → PrngReg) : θ_run defs (onTc (τ := τ) (main (F := F))) ⟨m, fun _ => 0, ρ⟩ (fun r => ∀ c : Dev nD,
      r.2.mem ((c.tc : Thread nD τ).loc main_v3) = (dat1 (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v3 (by decide))).trans (W4_arr m c 2),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

end Cert.Kernel.Hand

end
-- ==== Proof.Region0.lean ====
/-
  The first kernel region: the merged weight, tile by tile.

  The grid has 4 × 2 points; at point (i, j) the body reads the tile (i, j) of the original weight (1024 × 2048), the
  row block i of `u` (1024 × 16), the whole row of scales (1 × 16) and the column block j of `vt` (16 × 2048), and
  stores ONE value into the whole output tile: the tile of the original weight plus the product of the scaled block of
  `u` with the block of `vt`. The body keeps nothing between points, so what a point leaves in the output's staging
  buffer is a function of the four input blocks alone, and the region's invariant is the untouched rest.
  Everything is stated at the contents `V` the region is entered with, a parameter.
-/
import proofs.«139498_j1829656068759_2_alg».proof.Proof.Gen.KernelIdeal.Launch
import proofs.«139498_j1829656068759_2_alg».proof.Proof.Gen.KernelIdeal.Skeleton
import proofs.«139498_j1829656068759_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every point, whether the pipeline fetched it there or the
    block index did not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every point, whether the pipeline fetched it there or the
    block index did not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every point, whether the pipeline fetched it there or the
    block index did not move. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the array at every point, whether the pipeline fetched it there or the
    block index did not move. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev rW0 : Rect S1024x2048 := Rect.unit (s := S1024x2048) ![0, 0] S1024x2048.size inb_S1024x2048_S1024x2048_0_0
abbrev rU0 : Rect S1024x16 := Rect.unit (s := S1024x16) ![0, 0] S1024x16.size inb_S1024x16_S1024x16_0_0
abbrev rS0 : Rect S1x16 := Rect.unit (s := S1x16) ![0, 0] S1x16.size inb_S1x16_S1x16_0_0
abbrev rV0 : Rect S16x2048 := Rect.unit (s := S16x2048) ![0, 0] S16x2048.size inb_S16x2048_S16x2048_0_0

/-- What the body leaves in the output tile's buffer, from the four input blocks: its one store, of the whole tile. -/
def out0_4 (x0 : Vec F S1024x2048 .f32) (x1 : Vec F S1024x16 .f32) (x2 : Vec F S1x16 .f32) (x3 : Vec F S16x2048 .f32) : Vec F S1024x2048 .bf16 :=
  View.canon [⟨rW0, k0_pay1 (View.ld x1 rU0) (View.ld x2 rS0) (View.ld x3 rV0) (View.ld x0 rW0)⟩]

/-- The one store covers the buffer. -/
theorem cover0_4 (p0 : Vec F S1024x2048 .bf16) (y : S1024x2048.Idx) :
    ∃ pc ∈ ([⟨rW0, p0⟩] : List (View.Piece (Elt F) S1024x2048 .bf16)), y ∈ pc.1.set :=
  View.cover_of_tiled [⟨rW0, p0⟩] S1024x2048.size (by rfl) y

set_option maxHeartbeats 1000000 in
/-- The body on whole staging buffers: the inputs' at known contents, the output's at anything; it returns the inputs' as
    they were and the output's at `out0_4` of the inputs. -/
theorem sound_kernel0 (c : Dev nD) (E : Set ℕ) (i : grid0.Coords) (arg2 : Memref sig .tc .vmem S1024x2048 .f32) (harg2 : arg2.IsWhole) (arg3 : Memref sig .tc .vmem S1024x16 .f32) (harg3 : arg3.IsWhole)
    (arg4 : Memref sig .tc .vmem S1x16 .f32) (harg4 : arg4.IsWhole) (arg5 : Memref sig .tc .vmem S16x2048 .f32) (harg5 : arg5.IsWhole) (arg6 : Memref sig .tc .vmem S1024x2048 .bf16) (harg6 : arg6.IsWhole)
    (x0 : Vec F S1024x2048 .f32) (x1 : Vec F S1024x16 .f32) (x2 : Vec F S1x16 .f32) (x3 : Vec F S16x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out0_4 x0 x1 x2 x3)) -∗ K ⟨⟩))
      ⊢ wp frame (wpE (defs₀ (F := F)) Variants.none c none) E (cc0__build_w_kernel i arg2 harg2 arg3 harg3 arg4 harg4 arg5 harg5 arg6 harg6) K := by
  simp only [cc0__build_w_kernel_eq_skeleton]; unfold cc0__build_w_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The region's proof data -/

/-- The arrays as the region finds them; after the body each input's buffer at its block and the output's at
    `out0_4` of the four input blocks; the invariant the untouched rest (the scoped buffers no window stages and the
    generator register); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Region1Base.lean ====
/-
  The second kernel region, first part: what its runs are stated over.

  The grid has 4 × 4 × 4 points (i, j, k), the last axis the contracted one. At every point the body adds the product of
  the (i, k) block of the input (2048 × 1024) with the (k, j) block of the merged weight (1024 × 1024) to a scratch
  accumulator (2048 × 1024) that it keeps between points; at k = 0 it first clears the accumulator, and at k = 3 it
  copies the accumulator into the output tile (i, j). The two tests depend on the point only through k, and the
  points are numbered with k fastest, so they are decided by the point's number modulo 4. The output window is not
  touched, and not written back, at the points with k < 3.
-/
import proofs.«139498_j1829656068759_2_alg».proof.Proof.Gen.KernelIdeal.Launch
import proofs.«139498_j1829656068759_2_alg».proof.Proof.Gen.KernelIdeal.Skeleton
import proofs.«139498_j1829656068759_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two tests, decided over the grid -/

/-- "This point opens a reduction" (k = 0), as the body computes it. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This point closes a reduction" (k = 3), as the body computes it. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The buffers the body is called with -/

abbrev VO1_2 : View sig .tc .vmem S2048x1024 .f32 := (Memref.whole cc1_stg2_0 : Memref sig .tc .vmem S2048x1024 .f32).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1024 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S2048x1024 .f32 := Memref.whole cc1_scratch0
abbrev VS1 : View sig .tc .vmem S2048x1024 .f32 := scM1.view

/-- The untouched rest of the region with the accumulator singled out: every other scoped buffer that is no staging
    buffer of this region at anything, the accumulator at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Hand

end
-- ==== Proof.Region1RunA.lean ====
/-
  The second kernel region: the body run through at one kind of point.
-/
import proofs.«139498_j1829656068759_2_alg».proof.Proof.Region1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point that opens a reduction (the first of the four steps along the contracted axis): the scratch, at
    anything, is stored whole with zeros and then with the first block product; the output's buffer is not touched. The
    pieces the scratch ends with are found by running the body. -/
noncomputable def kernelRun1_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i)
    (x0 : Vec F S2048x1024 .bf16) (x1 : Vec F S1024x1024 .bf16) :
    Σ' (L2 : List (View.Piece (Elt F) S2048x1024 .f32)), { LS : List (View.Piece (Elt F) S2048x1024 .f32) //
      ∀ (xi2 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Hand

end
-- ==== Proof.Region1RunB.lean ====
/-
  The second kernel region: the body run through at one kind of point.
-/
import proofs.«139498_j1829656068759_2_alg».proof.Proof.Region1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a middle step of a reduction: the scratch, at what the step before left, is stored whole with that plus
    this step's block product; the output's buffer is not touched. -/
noncomputable def kernelRun1_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i)
    (x0 : Vec F S2048x1024 .bf16) (x1 : Vec F S1024x1024 .bf16) (xs : Vec F S2048x1024 .f32) :
    Σ' (L2 : List (View.Piece (Elt F) S2048x1024 .f32)), { LS : List (View.Piece (Elt F) S2048x1024 .f32) //
      ∀ (xi2 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Hand

end
-- ==== Proof.Region1RunC.lean ====
/-
  The second kernel region: the body run through at one kind of point.
-/
import proofs.«139498_j1829656068759_2_alg».proof.Proof.Region1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at the last step of a reduction: the scratch is stored whole with what the step before left plus this step's
    block product, and the output's buffer, at anything, is stored whole with the scratch's new contents. -/
noncomputable def kernelRun1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .bf16) (x1 : Vec F S1024x1024 .bf16) (xs : Vec F S2048x1024 .f32) :
    Σ' (L2 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Hand

end
-- ==== Proof.Region1Inv.lean ====
/-
  The second kernel region: its invariant with the accumulator singled out.

  Between two points the kernel may count on its accumulator; the other scoped buffers of the core that this region does
  not stage (the first region's staging buffers) and the generator register ride along untouched.
-/
import proofs.«139498_j1829656068759_2_alg».proof.Proof.Region1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What rides along: the first region's staging buffers at anything and the generator register at some state. -/
def PhiRest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ r, prngReg c r))

/-- The invariant with the accumulator's part `P` in its place. -/
def PhiAcc1 (c : Dev nD) (P : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ P) ∗ (∃ r, prngReg c r))

/-- The region's untouched rest is the invariant with the accumulator at anything. -/
theorem PhiA1_acc (c : Dev nD) :
    (Pipeline.ΦA spec1 c : sProp 𝕄) = PhiAcc1 c iprop(∃ d, owns (c : Thread nD τ) scM1 fullShare d) := by
  rw [PhiA1_eq]; rfl

theorem PhiAcc1_elim (c : Dev nD) (P : sProp 𝕄) : PhiAcc1 c P ⊢ iprop(P ∗ PhiRest1 c) := by
  unfold PhiAcc1 PhiRest1
  iintro ⟨⟨H1, H2, H3, H4, H5, H6, H7, H8, H9, HP⟩, Hg⟩
  isplitl [HP]; · iexact HP
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact Hg

theorem PhiAcc1_intro (c : Dev nD) (P : sProp 𝕄) : iprop(P ∗ PhiRest1 c) ⊢ PhiAcc1 c P := by
  unfold PhiAcc1 PhiRest1
  iintro ⟨HP, H1, H2, H3, H4, H5, H6, H7, H8, H9, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HP

end Cert.KernelIdeal.Hand

end
-- ==== Proof.Region1.lean ====
/-
  The second kernel region, last part: the accumulation, point by point, and the body obligation.

  After the body at point number n the accumulator holds: at a point that opens a reduction (n ≡ 0 mod 4) the first block
  product over zeros; otherwise what the point before left plus this point's block product. The output's staging buffer
  is stored only at the points that close a reduction (n ≡ 3 mod 4), with the accumulator's contents. The region's
  invariant between points is the untouched rest with the accumulator at exactly these contents.
-/
import proofs.«139498_j1829656068759_2_alg».proof.Proof.Region1RunC
import proofs.«139498_j1829656068759_2_alg».proof.Proof.Region1Inv

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## What each kind of point leaves -/

/-- A point that does not close a reduction leaves the output's buffer alone: a placeholder nothing consults. -/
def out1_idle : Vec F S2048x1024 .f32 := VO1_2.read (Elt F) VO1_2.junk

theorem scover1_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i) (x0 : Vec F S2048x1024 .bf16) (x1 : Vec F S1024x1024 .bf16) (y : S2048x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S2048x1024.size (by sl_kernel_rfl) y
/-- The accumulator after a point that opens a reduction. -/
def sout1_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i) (x0 : Vec F S2048x1024 .bf16) (x1 : Vec F S1024x1024 .bf16) : Vec F S2048x1024 .f32 :=
  VS1.read (Elt F) (VS1.writes (Elt F) VS1.junk (kernelRun1_A c i arg3 harg3 arg4 harg4 arg5 harg5 arg6 harg6 hc0 hc1 x0 x1).2.1)

theorem scover1_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i) (x0 : Vec F S2048x1024 .bf16) (x1 : Vec F S1024x1024 .bf16) (xs : Vec F S2048x1024 .f32) (y : S2048x1024.Idx) :
    ∃ pc ∈ (kernelRun1_B c i arg3 harg3 arg4 harg4 arg5 harg5 arg6 harg6 hc0 hc1 x0 x1 xs).2.1, y ∈ pc.1.set :=
  View.cover_of_tiledL (kernelRun1_B c i arg3 harg3 arg4 harg4 arg5 harg5 arg6 harg6 hc0 hc1 x0 x1 xs).2.1 S2048x1024.size (by sl_kernel_rfl) y
/-- The accumulator after a middle point, over what the point before left. -/
def sout1_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i) (x0 : Vec F S2048x1024 .bf16) (x1 : Vec F S1024x1024 .bf16) (xs : Vec F S2048x1024 .f32) : Vec F S2048x1024 .f32 :=
  VS1.read (Elt F) (VS1.writes (Elt F) VS1.junk (kernelRun1_B c i arg3 harg3 arg4 harg4 arg5 harg5 arg6 harg6 hc0 hc1 x0 x1 xs).2.1)

theorem scover1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i) (x0 : Vec F S2048x1024 .bf16) (x1 : Vec F S1024x1024 .bf16) (xs : Vec F S2048x1024 .f32) (y : S2048x1024.Idx) :
    ∃ pc ∈ (kernelRun1_C c i arg3 harg3 arg4 harg4 arg5 harg5 arg6 harg6 hc0 hc1 x0 x1 xs).2.1, y ∈ pc.1.set :=
  View.cover_of_tiledL (kernelRun1_C c i arg3 harg3 arg4 harg4 arg5 harg5 arg6 harg6 hc0 hc1 x0 x1 xs).2.1 S2048x1024.size (by sl_kernel_rfl) y
/-- The accumulator after a point that closes a reduction. -/
def sout1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i) (x0 : Vec F S2048x1024 .bf16) (x1 : Vec F S1024x1024 .bf16) (xs : Vec F S2048x1024 .f32) : Vec F S2048x1024 .f32 :=
  VS1.read (Elt F) (VS1.writes (Elt F) VS1.junk (kernelRun1_C c i arg3 harg3 arg4 harg4 arg5 harg5 arg6 harg6 hc0 hc1 x0 x1 xs).2.1)
theorem cover1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i) (x0 : Vec F S2048x1024 .bf16) (x1 : Vec F S1024x1024 .bf16) (xs : Vec F S2048x1024 .f32) (y : S2048x1024.Idx) :
    ∃ pc ∈ (kernelRun1_C c i arg3 harg3 arg4 harg4 arg5 harg5 arg6 harg6 hc0 hc1 x0 x1 xs).1, y ∈ pc.1.set :=
  View.cover_of_tiledL (kernelRun1_C c i arg3 harg3 arg4 harg4 arg5 harg5 arg6 harg6 hc0 hc1 x0 x1 xs).1 S2048x1024.size (by sl_kernel_rfl) y
/-- The output's buffer after a point that closes a reduction. -/
def out1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i) (x0 : Vec F S2048x1024 .bf16) (x1 : Vec F S1024x1024 .bf16) (xs : Vec F S2048x1024 .f32) : Vec F S2048x1024 .f32 :=
  VO1_2.read (Elt F) (VO1_2.writes (Elt F) VO1_2.junk (kernelRun1_C c i arg3 harg3 arg4 harg4 arg5 harg5 arg6 harg6 hc0 hc1 x0 x1 xs).1)

section Region1
variable (V : (c : Dev nD) → (b : Ref sig .tc) → Buf (Elt F) ((c : Thread nD τ).loc b))

/-- THE ACCUMULATION: what the output's staging buffer and the accumulator hold after the body at point number `n`. -/
def outsAt1 (c : Dev nD) : (n : ℕ) → n < cfg1.N → Vec F S2048x1024 .f32 × Vec F S2048x1024 .f32
  | 0, hn => (out1_idle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_idle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_idle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_idle, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_idle, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before point number `n`: before the first point the untouched rest; afterwards the same with the accumulator
    at what the point before left. -/
def PhiS1 (c : Dev nD) : (n : ℕ) → n ≤ cfg1.N → sProp 𝕄
  | 0, _ => Pipeline.ΦA spec1 c
  | n + 1, hn => PhiAcc1 c (owns (c : Thread nD τ) scM1 fullShare ((outsAt1 V c n hn).2))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiAcc1 c (owns (c : Thread nD τ) scM1 fullShare ((outsAt1 V c n hn).2)) := rfl
theorem PhiS1_pos (c : Dev nD) (n : ℕ) (h : n ≤ cfg1.N) (hz : n ≠ 0) :
    PhiS1 V c n h = PhiAcc1 c (owns (c : Thread nD τ) scM1 fullShare ((outsAt1 V c (n - 1) (by omega)).2)) := by
  cases n with
  | zero => exact absurd rfl hz
  | succ n => rfl

/-- The region's proof data: the arrays as the region finds them; each input's buffer at its block; the output's and the
    accumulator's contents by the accumulation; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

end Region1

section Region1b
variable (V : (c : Dev nD) → (b : Ref sig .tc) → Buf (Elt F) ((c : Thread nD τ).loc b))

set_option maxHeartbeats 4800000 in
/-- The body at any point: the point's number modulo 4 says which kind of point it is; the invariant hands the body the
    accumulator at what the point before left (at anything before the first point) and takes it back at this point's
    contents; the inputs' buffers hold their blocks; the output's buffer is stored only where a reduction closes. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_acc]
      iintro ⟨HΦ, Ho, ⟨%d0, H0⟩, ⟨%d1, H1⟩, ⟨%d2, H2⟩⟩
      ihave HΦ' := PhiAcc1_elim c _ $$ HΦ
      icases HΦ' with ⟨HS, HR⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR]
      · iapply PhiAcc1_intro c _
        isplitl [HS]
        · unfold owns; iexists _; isplitr
          swap; · iexact HS
          ipureintro; exact View.read_writes_of_cover _ _ _ _ _ (scover1_A c _ _ _ _ _ _ _ _ _ _ _ _ _)
        iexact HR
      isplitl [Ho]; · iexact Ho
      isplitl [H0]; · iexact H0
      isplitl [H1]; · iexact H1
      iexists _; iexact H2
    · rw [PhiS1_castSucc V c t, PhiS1_pos V c _ _ hz]
      iintro ⟨HΦ, Ho, ⟨%d0, H0⟩, ⟨%d1, H1⟩, ⟨%d2, H2⟩⟩
      ihave HΦ' := PhiAcc1_elim c _ $$ HΦ
      icases HΦ' with ⟨HS, HR⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR]
      · iapply PhiAcc1_intro c _
        isplitl [HS]
        · unfold owns; iexists _; isplitr
          swap; · iexact HS
          ipureintro; exact View.read_writes_of_cover _ _ _ _ _ (scover1_A c _ _ _ _ _ _ _ _ _ _ _ _ _)
        iexact HR
      isplitl [Ho]; · iexact Ho
      isplitl [H0]; · iexact H0
      isplitl [H1]; · iexact H1
      iexists _; iexact H2
  · have hz : t.val ≠ 0 := by intro h; rw [h] at h0; exact h0 (Nat.zero_mod _)
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨HΦ, Ho, ⟨%d0, H0⟩, ⟨%d1, H1⟩, ⟨%d2, H2⟩⟩
      ihave HΦ' := PhiAcc1_elim c _ $$ HΦ
      icases HΦ' with ⟨HS, HR⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR]
      · iapply PhiAcc1_intro c _
        isplitl [HS]
        · unfold owns; iexists _; isplitr
          swap; · iexact HS
          ipureintro; exact View.read_writes_of_cover _ _ _ _ _ (scover1_C c _ _ _ _ _ _ _ _ _ _ _ _ _ _)
        iexact HR
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨HΦ, Ho, ⟨%d0, H0⟩, ⟨%d1, H1⟩, ⟨%d2, H2⟩⟩
      ihave HΦ' := PhiAcc1_elim c _ $$ HΦ
      icases HΦ' with ⟨HS, HR⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR]
      · iapply PhiAcc1_intro c _
        isplitl [HS]
        · unfold owns; iexists _; isplitr
          swap; · iexact HS
          ipureintro; exact View.read_writes_of_cover _ _ _ _ _ (scover1_B c _ _ _ _ _ _ _ _ _ _ _ _ _ _)
        iexact HR
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the untouched rest back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_acc]
  iintro H
  ihave H' := PhiAcc1_elim c _ $$ H
  icases H' with ⟨HS, HR⟩
  iapply PhiAcc1_intro c _
  isplitl [HS]; · iexists _; iexact HS
  iexact HR

end Region1b

end Cert.KernelIdeal.Hand

end
-- ==== Proof.Run.lean ====
/-
  The whole run: two host steps and two kernel regions, in order.

  The scales are first laid out as a row; the first region writes the merged weight; the input is then converted to
  the narrow format; the second region writes the product. The buffers' contents at each boundary are a fold from the
  launch memory: a host step's result where it writes, a region's output array at what its write-backs leave, every
  other buffer as it was. No step writes an argument array, so each ends as launched, and the result array ends at
  what the second region's write-backs leave.
-/
import proofs.«139498_j1829656068759_2_alg».proof.Proof.Region0
import proofs.«139498_j1829656068759_2_alg».proof.Proof.Region1
import proofs.«139498_j1829656068759_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (cellOf)

variable (m : (ℓ : Loc nD τ sig) → Buf (Elt F) ℓ)

/-! ## The buffer contents at each boundary -/

/-- Core `c`'s buffers at launch. -/
abbrev W0 : Dev nD → Valuation τ sig (Elt F) := fun c b => m (c, b)
/-- After the scales are laid out as a row (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the input is converted (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## No step writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := (W2_arr m c 0).trans (((dat0 (V1 m) c).arrAt_in 0 rfl _).trans (A_eq0 (V1 m) c 0))
    _ = W0 m c (Proc.devRef .tc main_arg1) := StableHlo.after_of_writes_sub hostOps0 _ hostOps0_writes (r := main_arg1) (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_writes_sub hostOps0 _ hostOps0_writes (r := main_arg2) (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := (W2_arr m c 3).trans (((dat0 (V1 m) c).arrAt_in 3 rfl _).trans (A_eq0 (V1 m) c 3))
    _ = W0 m c (Proc.devRef .tc main_arg4) := StableHlo.after_of_writes_sub hostOps0 _ hostOps0_writes (r := main_arg4) (by decide)
    _ = m ((c : Thread nD τ).loc main_arg4) := rfl

/-! ## The proof data family and the thread state -/

abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every step: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as steps -/

set_option backward.isDefEq.respectTransparency.types false in
/-- The first region: entered from every unscoped buffer at `W1`, left at `W2`. Its arrays are split out of the unscoped
    buffers and put back at the exit contents; the generator register goes into the invariant and comes out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`. Its invariant starts as the untouched rest
    and ends giving it back, the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m 1 c).Φ 0 := hin1 (V3 m) c
    unfold Pipeline.ΦA at h
    iintro ⟨Hp, -, Hr⟩
    iapply h
    isplitl [Hr]; · iexact Hr
    iexact Hp
  hout c := by
    have h : (pdats m 1 c).Φ (Fin.last _) ⊢ (Pipeline.ΦA spec1 c : sProp 𝕄) := hout1 (V3 m) c
    unfold Pipeline.ΦA at h
    rw [Pipeline.ownSems0_none]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution ends, nothing faulting, with the result array at what the
    second region's write-backs leave and every argument array as launched. -/
theorem run_main (ρ : Dev nD → PrngReg) : θ_run defs (onTc (τ := τ) (main (F := F))) ⟨m, fun _ => 0, ρ⟩ (fun r => ∀ c : Dev nD,
      r.2.mem ((c.tc : Thread nD τ).loc main_v3) = (dat1 (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v3 (by decide))).trans (W4_arr m c 2),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

end Cert.KernelIdeal.Hand

end
-- ==== Proof.HostSteps.lean ====
/-
  The two host steps between the launch and the regions, read as values.

  Before the first region the sixteen scales are laid out as a 1 × 16 row; before the second region the input is
  converted to the narrow float format. Every other buffer a region reads is either an argument, still at its launch
  contents, or the first region's output.
-/
import proofs.«139498_j1829656068759_2_alg».proof.Proof.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (c : Dev nD)

/-- At the first region's entry a buffer the reshape does not write holds its launch contents. -/
theorem V1_of_launch (r : Ref sig .tc) (h : r ∉ hostOps0_W) : V1 m c r = m ((c : Thread nD τ).loc r) :=
  StableHlo.after_of_writes_sub hostOps0 _ hostOps0_writes h

/-- The row of scales the first region reads is the reshaped argument. -/
theorem V1_scales : V1 m c main_v0 = shapeCast S1x16 (m ((c : Thread nD τ).loc main_arg3)) shapeCasts_S16_S1x16 := by
  show StableHlo.after hostOps0 (W0 m c) (Proc.devRef .tc main_v0) = _
  after_results
  rfl

/-- The input the second region reads is the converted argument. -/
theorem V3_input : V3 m c main_v2 = truncf .bf16 (m ((c : Thread nD τ).loc main_arg0)) bitsLt_bf16_f32 := by
  show StableHlo.after hostOps1 (W2 m c) (Proc.devRef .tc main_v2) = _
  after_results
  rw [show W2 m c (Proc.devRef .tc main_arg0) = m ((c : Thread nD τ).loc main_arg0) from
    (W2_of_ne m c main_arg0 (by decide)).trans (V1_of_launch m c main_arg0 (by decide))]

/-- The weight the second region reads is what the first region's write-backs left. -/
theorem V3_weight : V3 m c main_v1 = (dat0 (V1 m) c).arrAt 4 cfg0.N :=
  (StableHlo.after_of_writes_sub hostOps1 _ hostOps1_writes (r := main_v1) (by decide)).trans (W2_arr m c 4)

end Cert.KernelIdeal.Hand

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.BodyValues.lean ====
/-
  The arithmetic of the two kernel bodies, read at an index, at the ideal values.

  The first body stores one tile of the adapted weight: the original tile plus the product of the scaled left factor
  with the right factor, a sum over the 16 rank coordinates. The second body first clears, then adds to the running
  tile the product of an activation tile with a weight tile, a sum over the 1024 contraction coordinates of the step.
  At the ideal values a change of float format is the identity, a reshape to the same shape is the identity, and a
  one-row array broadcast over rows reads its only row.
-/
import proofs.«139498_j1829656068759_2_alg».proof.Proof.Gen.KernelIdeal.Skeleton
import proofs.«139498_j1829656068759_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.Lora.BodyValues

open Idealize.ShloMosaic Idealize.ShloMosaic.ValueIdx Cert.KernelIdeal

variable [Cert.KernelIdeal.Facts]

/-- A change of float format is the identity at the ideal values. -/
theorem truncf_bf16_apply {S : Shape} (v : FVec Ideal S .f32) (h : FTy.bits .bf16 < FTy.bits .f32) (i : S.Idx) :
    truncf .bf16 v h i = v i := rfl

/-- The [16] → [1, 16] reshape read at (0, r) is the operand at r. -/
theorem reshape_row (s : Vec Ideal S16 .f32) (h : S16.ShapeCasts S1x16) (r : Fin 16) :
    shapeCast S1x16 s h (ix2 0 r) = s (ix1 r) :=
  shapeCast_a_1a_apply s h 0 r

/-- The weight tile at (p, q): the original entry plus Σ_r (u(p, r) · s(0, r)) · vt(r, q). -/
theorem k0_pay1_apply (v0 : Vec Ideal S1024x16 .f32) (v1 : Vec Ideal S1x16 .f32) (v5 : Vec Ideal S16x2048 .f32)
    (v7 : Vec Ideal S1024x2048 .f32) (p : Fin 1024) (q : Fin 2048) :
    Gen.k0_pay1 (F := Ideal) v0 v1 v5 v7 (ix2 p q)
      = v7 (ix2 p q) + ∑ r : Fin 16, (v0 (ix2 p r) * v1 (ix2 0 r)) * v5 (ix2 r q) := by
  unfold Gen.k0_pay1
  rw [truncf_apply, addf_apply]
  refine congrArg (fun t => v7 (ix2 p q) + t) ?_
  refine (matmul_plain_zero_apply 1024 16 2048 none _ v5 p q).trans ?_
  refine Finset.sum_congr rfl fun r _ => ?_
  rw [mulf_apply, broadcastTo_1b_ab_apply, shapeCast_self]

/-- The cleared tile is zero everywhere. -/
theorem k1_pay1_apply (i : S2048x1024.Idx) : Gen.k1_pay1 (F := Ideal) i = 0 := by
  unfold Gen.k1_pay1
  rw [shapeCast_self, broadcast_apply]
  exact Ideal.ofBits_zero_f32

/-- The running tile after a step, at (p, q): the previous entry plus Σ_k x(p, k) · w(k, q). -/
theorem k1_pay2_apply (v3 : Vec Ideal S2048x1024 .f32) (v4 : Vec Ideal S2048x1024 .bf16) (v6 : Vec Ideal S1024x1024 .bf16)
    (p : Fin 2048) (q : Fin 1024) :
    Gen.k1_pay2 (F := Ideal) v3 v4 v6 (ix2 p q)
      = v3 (ix2 p q) + ∑ kk : Fin 1024, v4 (ix2 p kk) * v6 (ix2 kk q) := by
  unfold Gen.k1_pay2
  rw [shapeCast_self, shapeCast_self, shapeCast_self, addf_apply]
  refine congrArg (fun t => v3 (ix2 p q) + t) ?_
  exact matmul_plain_zero_apply 2048 1024 1024 none v4 v6 p q

end Cert.Lora.BodyValues

end
-- ==== Proof.Region0Value.lean ====
/-
  The first region's result as one function of the arrays it is entered with, at the ideal values.

  The output array is tiled by 4 × 2 blocks of 1024 × 2048; the point of the grid that owns block (i, j) stores there
  the tile of the original weight plus the product of the scaled row block i of the left factor with the column
  block j of the right factor. Entry (a, b) of that tile only reads row a of the left factor and column b of the right
  factor, so every block is the restriction of ONE function of the whole arrays, and since the blocks cover the array
  the array ends holding that function.
-/
import proofs.«139498_j1829656068759_2_alg».proof.Proof.Region0
import proofs.«139498_j1829656068759_2_alg».proof.Proof.BodyValues
import Idealize.ShloMosaic.Lib.Pipeline.Value

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-- The merged weight at (a, b): the original entry plus Σ_r (u(a, r) · s(0, r)) · vt(r, b). -/
def tileW (orig : S4096x4096.Idx → EReal) (u : S4096x16.Idx → EReal) (s2 : S1x16.Idx → EReal) (vt : S16x4096.Idx → EReal) :
    S4096x4096.Idx → EReal :=
  fun i => orig i + ∑ r : Fin 16, (u (ix2 (i 0) r) * s2 (ix2 0 r)) * vt (ix2 r (i 1))

theorem zero_offsets : (![0, 0] : Fin 2 → Nat) = fun _ => 0 := funext fun a => by fin_cases a <;> rfl

/-- The block indices over the grid: the original weight's block moves with the output's; the left factor's follows
    the output's block row and the right factor's its block column; the scales have one block. -/
theorem block_indices : ∀ t : Fin cfg0.N, win0_0.index t (0 : Fin 2) = win0_4.index t (0 : Fin 2)
    ∧ win0_0.index t (1 : Fin 2) = win0_4.index t (1 : Fin 2)
    ∧ win0_1.index t (0 : Fin 2) = win0_4.index t (0 : Fin 2)
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = win0_4.index t (1 : Fin 2)
    ∧ win0_4.index t (0 : Fin 2) ≤ 3 ∧ win0_4.index t (1 : Fin 2) ≤ 1 :=
  (by decide +kernel : ∀ t : Fin grid0.N, _)

/-- Every block of the output is some point's. -/
theorem block_onto : ∀ (q0 : Fin 4) (q1 : Fin 2), ∃ t : Fin cfg0.N, win0_4.index t = ![q0.val, q1.val] :=
  (by decide +kernel : ∀ (q0 : Fin 4) (q1 : Fin 2), ∃ t : Fin grid0.N, win0_4.index t = ![q0.val, q1.val])

/-- One entry of a stored tile, when the four input blocks and the output block sit in their arrays so that the
    original weight's block is the output's, the left factor's block holds the output block's rows, the right factor's its
    columns and the scales' block is the whole row: the entry is the merged weight at the entry's place in the array. -/
theorem tile_entry (orig : S4096x4096.Idx → EReal) (u : S4096x16.Idx → EReal) (s2 : S1x16.Idx → EReal) (vt : S16x4096.Idx → EReal)
    (e0 : S1024x2048.Idx → S4096x4096.Idx) (e1 : S1024x16.Idx → S4096x16.Idx) (e2 : S1x16.Idx → S1x16.Idx)
    (e3 : S16x2048.Idx → S16x4096.Idx) (e4 : S1024x2048.Idx → S4096x4096.Idx) (p : Fin 1024) (q : Fin 2048)
    (h0 : e0 (ix2 p q) = e4 (ix2 p q)) (h1 : ∀ r : Fin 16, e1 (ix2 p r) = ix2 (e4 (ix2 p q) 0) r)
    (h2 : ∀ r : Fin 16, e2 (ix2 (0 : Fin 1) r) = ix2 (0 : Fin 1) r) (h3 : ∀ r : Fin 16, e3 (ix2 r q) = ix2 r (e4 (ix2 p q) 1)) :
    k0_pay1 (F := Ideal) (fun y => u (e1 y)) (fun y => s2 (e2 y)) (fun y => vt (e3 y)) (fun y => orig (e0 y)) (ix2 p q)
      = tileW orig u s2 vt (e4 (ix2 p q)) := by
  refine (Cert.Lora.BodyValues.k0_pay1_apply _ _ _ _ p q).trans ?_
  show orig (e0 (ix2 p q)) + ∑ r : Fin 16, (u (e1 (ix2 p r)) * s2 (e2 (ix2 (0 : Fin 1) r))) * vt (e3 (ix2 r q))
    = orig (e4 (ix2 p q)) + ∑ r : Fin 16, (u (ix2 (e4 (ix2 p q) 0) r) * s2 (ix2 (0 : Fin 1) r)) * vt (ix2 r (e4 (ix2 p q) 1))
  rw [h0]
  simp only [h1, h2, h3]
  rfl

/-- An index of the array is in point `t`'s block iff each coordinate is in the block's range on its axis. -/
theorem mem_block (t : Fin cfg0.N) (i : S4096x4096.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v1).slice (win0_4.rect t)).set ↔ _
  rw [View.set_slice_whole, Rect.mem_set_unit]
  exact Iff.rfl

/-- The blocks cover the array: (a, b) is in the block of the point with block row a / 1024 and block column b / 2048. -/
theorem covered (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := block_onto ⟨(i 0).val / 1024, by omega⟩ ⟨(i 1).val / 2048, by omega⟩
  have q0 : win0_4.index t (0 : Fin 2) = (i 0).val / 1024 := congrFun ht 0
  have q1 : win0_4.index t (1 : Fin 2) = (i 1).val / 2048 := congrFun ht 1
  refine ⟨t, flush0_4 t, ?_⟩
  rw [mem_block]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 2048 ≤ (i 1).val ∧ (i 1).val < win0_4.index t (1 : Fin 2) * 2048 + 2048
    omega

section
variable (V : (c : Dev nD) → (b : Ref sig .tc) → Buf (Elt Ideal) ((c : Thread nD τ).loc b))

/-- What point `t` writes back is block `t` of the merged weight of the arrays as the region finds them. -/
theorem flushed_eq (c : Dev nD) (t : Fin cfg0.N) :
    (dat0 (F := Ideal) V c).flushed 4 t
      = ((cfg0.win 4).blk t).view.read (Elt Ideal) (tileW (V c main_arg1) (V c main_arg2) (V c main_v0) (V c main_arg4)) := by
  show (cfg0.win 4).cut (grid0.coords t) ((dat0 (F := Ideal) V c).after 4 t) = _
  rw [after0_4]
  unfold out0_4
  rw [View.canon_unit_zero zero_offsets]
  simp only [View.ld_unit_zero (S := S1024x2048) zero_offsets, View.ld_unit_zero (S := S1024x16) zero_offsets,
    View.ld_unit_zero (S := S1x16) zero_offsets, View.ld_unit_zero (S := S16x2048) zero_offsets]
  obtain ⟨e00, e01, e10, e11, e20, e21, e30, e31, b0, b1⟩ := block_indices t
  refine funext fun (j : S1024x2048.Idx) => ?_
  obtain ⟨p, q, rfl⟩ : ∃ (p : Fin 1024) (q : Fin 2048), j = ix2 p q := ⟨j 0, j 1, eq_ix2 j⟩
  have h0 : ((cfg0.win 0).blk t).view.emb (ix2 p q) = ((cfg0.win 4).blk t).view.emb (ix2 p q) := by
    funext a; apply Fin.ext
    match a with
    | ⟨0, _⟩ => show win0_0.index t (0 : Fin 2) * 1024 + 1 * p.val = win0_4.index t (0 : Fin 2) * 1024 + 1 * p.val; omega
    | ⟨1, _⟩ => show win0_0.index t (1 : Fin 2) * 2048 + 1 * q.val = win0_4.index t (1 : Fin 2) * 2048 + 1 * q.val; omega
  have h1 : ∀ r : Fin 16, ((cfg0.win 1).blk t).view.emb (ix2 p r) = ix2 ((((cfg0.win 4).blk t).view.emb (ix2 p q)) 0) r := by
    intro r; funext a; apply Fin.ext
    match a with
    | ⟨0, _⟩ => show win0_1.index t (0 : Fin 2) * 1024 + 1 * p.val = win0_4.index t (0 : Fin 2) * 1024 + 1 * p.val; omega
    | ⟨1, _⟩ => show win0_1.index t (1 : Fin 2) * 16 + 1 * r.val = r.val; omega
  have h2 : ∀ r : Fin 16, ((cfg0.win 2).blk t).view.emb (ix2 (0 : Fin 1) r) = ix2 (0 : Fin 1) r := by
    intro r; funext a; apply Fin.ext
    match a with
    | ⟨0, _⟩ => show win0_2.index t (0 : Fin 2) * 1 + 1 * 0 = 0; omega
    | ⟨1, _⟩ => show win0_2.index t (1 : Fin 2) * 16 + 1 * r.val = r.val; omega
  have h3 : ∀ r : Fin 16, ((cfg0.win 3).blk t).view.emb (ix2 r q) = ix2 r ((((cfg0.win 4).blk t).view.emb (ix2 p q)) 1) := by
    intro r; funext a; apply Fin.ext
    match a with
    | ⟨0, _⟩ => show win0_3.index t (0 : Fin 2) * 16 + 1 * r.val = r.val; omega
    | ⟨1, _⟩ => show win0_3.index t (1 : Fin 2) * 2048 + 1 * q.val = win0_4.index t (1 : Fin 2) * 2048 + 1 * q.val; omega
  exact tile_entry (V c main_arg1) (V c main_arg2) (V c main_v0) (V c main_arg4) ((cfg0.win 0).blk t).view.emb
    ((cfg0.win 1).blk t).view.emb ((cfg0.win 2).blk t).view.emb ((cfg0.win 3).blk t).view.emb ((cfg0.win 4).blk t).view.emb
    p q h0 h1 h2 h3

/-- The output array after the region: the merged weight of the arrays the region is entered with. -/
theorem final0 (c : Dev nD) :
    (dat0 (F := Ideal) V c).arrAt 4 cfg0.N = tileW (V c main_arg1) (V c main_arg2) (V c main_v0) (V c main_arg4) :=
  (dat0 (F := Ideal) V c).arrAt_eq_of_cover 4 (tileW (V c main_arg1) (V c main_arg2) (V c main_v0) (V c main_arg4))
    (fun t _ => flushed_eq V c t) covered

end

end Cert.KernelIdeal.HandValue

end
-- ==== Proof.LibTileSum.lean ====
/-
  A double sum over a matrix cut into equal tiles. An index `r < A * a` is `i * a + p` for one tile row `i < A`
  and one offset `p < a` inside it, so a sum over `r` is the sum over `i` of the sums over `p`; for two axes the
  sum over all entries of an `(A·a) × (B·b)` matrix is the sum over the `A × B` tiles of each tile's entries.
  Also the same for a tile counter: `t < A * B` read as row `t / B` and column `t % B` of the tile grid.
  Values in any commutative additive monoid (on the extended reals no finiteness is needed).
-/
import Mathlib.Algebra.BigOperators.Fin
import Mathlib.Logic.Equiv.Fin.Basic

namespace TileSum

open Finset

variable {M : Type*} [AddCommMonoid M]

/-- Offset `p` of tile `i` is below the whole extent. -/
theorem tile_lt {A a : ℕ} (i : Fin A) (p : Fin a) : i.val * a + p.val < A * a := by
  have h1 : i.val * a + p.val < i.val * a + a := Nat.add_lt_add_left p.isLt _
  have h2 : i.val * a + a ≤ A * a := by
    rw [← Nat.succ_mul]; exact Nat.mul_le_mul_right a i.isLt
  exact lt_of_lt_of_le h1 h2

/-- The index of offset `p` of tile `i` along an axis of extent `R = A * a`. -/
def idx {R A a : ℕ} (h : A * a = R) (i : Fin A) (p : Fin a) : Fin R := ⟨i.val * a + p.val, h ▸ tile_lt i p⟩

@[simp] theorem idx_val {R A a : ℕ} (h : A * a = R) (i : Fin A) (p : Fin a) : (idx h i p).val = i.val * a + p.val := rfl

/-- One axis: the sum over the axis is the sum over the tiles of the sums inside each tile. -/
theorem sum_axis {R A a : ℕ} (h : A * a = R) (g : Fin R → M) :
    ∑ r, g r = ∑ i : Fin A, ∑ p : Fin a, g (idx h i p) := by
  subst h
  rw [← Equiv.sum_comp finProdFinEquiv g, Fintype.sum_prod_type]
  refine sum_congr rfl fun i _ => sum_congr rfl fun p _ => congrArg g (Fin.ext ?_)
  show p.val + a * i.val = i.val * a + p.val
  rw [Nat.mul_comm, Nat.add_comm]

/-- Two axes: the sum over all entries is the sum over the tiles of the sums over each tile's entries. -/
theorem sum_matrix {R C A a B b : ℕ} (hR : A * a = R) (hC : B * b = C) (f : Fin R → Fin C → M) :
    ∑ r, ∑ c, f r c = ∑ i : Fin A, ∑ j : Fin B, ∑ p : Fin a, ∑ q : Fin b, f (idx hR i p) (idx hC j q) := by
  have h1 : ∀ r : Fin R, ∑ c, f r c = ∑ j : Fin B, ∑ q : Fin b, f r (idx hC j q) := fun r => sum_axis hC (f r)
  calc ∑ r, ∑ c, f r c = ∑ r, ∑ j : Fin B, ∑ q : Fin b, f r (idx hC j q) := sum_congr rfl fun r _ => h1 r
    _ = ∑ i : Fin A, ∑ p : Fin a, ∑ j : Fin B, ∑ q : Fin b, f (idx hR i p) (idx hC j q) :=
        sum_axis hR (fun r => ∑ j : Fin B, ∑ q : Fin b, f r (idx hC j q))
    _ = ∑ i : Fin A, ∑ j : Fin B, ∑ p : Fin a, ∑ q : Fin b, f (idx hR i p) (idx hC j q) :=
        sum_congr rfl fun i _ => sum_comm

/-- A tile counter `t < A * B`, row-major: the sum over `t` of a function of its row `t / B` and column `t % B` is
    the double sum over the rows and columns. -/
theorem sum_counter {N A B : ℕ} (h : A * B = N) (g : Fin A → Fin B → M) (row : Fin N → Fin A) (col : Fin N → Fin B)
    (hrow : ∀ t, (row t).val = t.val / B) (hcol : ∀ t, (col t).val = t.val % B) :
    ∑ t, g (row t) (col t) = ∑ i : Fin A, ∑ j : Fin B, g i j := by
  rw [sum_axis h (fun t => g (row t) (col t))]
  refine sum_congr rfl fun i _ => sum_congr rfl fun j _ => ?_
  have hB : 0 < B := Nat.pos_of_ne_zero fun e => by have := j.isLt; omega
  have e1 : row (idx h i j) = i := Fin.ext (by
    rw [hrow, idx_val, Nat.add_comm, Nat.add_mul_div_right _ _ hB, Nat.div_eq_of_lt j.isLt, Nat.zero_add])
  have e2 : col (idx h i j) = j := Fin.ext (by
    rw [hcol, idx_val, Nat.add_comm, Nat.add_mul_mod_self_right, Nat.mod_eq_of_lt j.isLt])
  rw [e1, e2]

end TileSum
-- ==== Proof.Region1Value.lean ====
/-
  The second kernel region's result, as one function of the two arrays the region reads.

  The grid's 64 points come in 16 groups of four consecutive points; a group works on one 2048 × 1024 tile of the output,
  and its four points walk the four quarters of the contracted axis (4 × 1024 = 4096). The first point of a group clears
  a running tile and adds the product of its two blocks, each later point adds its own block product, and the last point
  copies the running tile into the output tile, which is then written back. So the tile written back is
  (((0 + P₀) + P₁) + P₂) + P₃ of the four block products, entry by entry; a block's entry is an entry of its array at
  block index × block size + the coordinate inside the block; and the four partial sums over the quarters are the one sum
  over the whole contracted axis. Only sums and products of extended reals are formed, and the only law used is
  0 + a = a: nothing needs the entries to be finite. The sixteen tiles written back cover the output array.
-/
import proofs.«139498_j1829656068759_2_alg».proof.Proof.Region1
import proofs.«139498_j1829656068759_2_alg».proof.Proof.BodyValues
import proofs.«139498_j1829656068759_2_alg».proof.Proof.LibTileSum
import Idealize.ShloMosaic.Lib.Pipeline.Value

set_option maxRecDepth 16384

noncomputable section

namespace Cert.KernelIdeal.HandValue.Acc

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.Hand

/-! ## What one step of the body leaves, as the step's arithmetic of what it read -/

section Pieces
variable {F : FTy → Type} [FloatOps F]

theorem hz2 : (![0, 0] : Fin 2 → Nat) = fun _ => 0 := funext fun a => by fin_cases a <;> rfl

/-- A step that opens a reduction leaves the product of its two blocks added to the cleared tile. -/
theorem sout1_A_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i) (x0 : Vec F S2048x1024 .bf16) (x1 : Vec F S1024x1024 .bf16) :
    sout1_A c i arg3 harg3 arg4 harg4 arg5 harg5 arg6 harg6 hc0 hc1 x0 x1 = k1_pay2 (k1_pay1 (F := F)) x0 x1 := by
  unfold sout1_A
  rw [View.read_writes_eq_canon _ _ _ (scover1_A c i arg3 harg3 arg4 harg4 arg5 harg5 arg6 harg6 hc0 hc1 x0 x1)]
  unfold kernelRun1_A
  dsimp only
  sl_unfold_words
  rw [View.canon_cons_unit_zero (S := S2048x1024) hz2, View.readCov_unit_zero (S := S2048x1024) _ hz2]
  simp only [View.readAt_eq_ld, harg3.read_unread, harg4.read_unread, harg6.read_unread, View.ld_unit_zero (S := S2048x1024) hz2, View.ld_unit_zero (S := S1024x1024) hz2]

/-- A middle step leaves the product of its two blocks added to what the step before left. -/
theorem sout1_B_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i) (x0 : Vec F S2048x1024 .bf16) (x1 : Vec F S1024x1024 .bf16) (xs : Vec F S2048x1024 .f32) :
    sout1_B c i arg3 harg3 arg4 harg4 arg5 harg5 arg6 harg6 hc0 hc1 x0 x1 xs = k1_pay2 xs x0 x1 := by
  unfold sout1_B
  rw [View.read_writes_eq_canon _ _ _ (scover1_B c i arg3 harg3 arg4 harg4 arg5 harg5 arg6 harg6 hc0 hc1 x0 x1 xs)]
  unfold kernelRun1_B
  dsimp only
  rw [View.canon_unit_zero (S := S2048x1024) hz2]
  simp only [View.readAt_eq_ld, harg3.read_unread, harg4.read_unread, harg6.read_unread, View.ld_unit_zero (S := S2048x1024) hz2, View.ld_unit_zero (S := S1024x1024) hz2]

/-- So does a step that closes a reduction, in the running tile … -/
theorem sout1_C_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i) (x0 : Vec F S2048x1024 .bf16) (x1 : Vec F S1024x1024 .bf16) (xs : Vec F S2048x1024 .f32) :
    sout1_C c i arg3 harg3 arg4 harg4 arg5 harg5 arg6 harg6 hc0 hc1 x0 x1 xs = k1_pay2 xs x0 x1 := by
  unfold sout1_C
  rw [View.read_writes_eq_canon _ _ _ (scover1_C c i arg3 harg3 arg4 harg4 arg5 harg5 arg6 harg6 hc0 hc1 x0 x1 xs)]
  unfold kernelRun1_C
  dsimp only
  sl_unfold_words
  rw [View.canon_unit_zero (S := S2048x1024) hz2]
  simp only [View.readAt_eq_ld, harg3.read_unread, harg4.read_unread, harg6.read_unread, View.ld_unit_zero (S := S2048x1024) hz2, View.ld_unit_zero (S := S1024x1024) hz2]

/-- … and in the output tile, which it stores with the running tile read back after its store. -/
theorem out1_C_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i) (x0 : Vec F S2048x1024 .bf16) (x1 : Vec F S1024x1024 .bf16) (xs : Vec F S2048x1024 .f32) :
    out1_C c i arg3 harg3 arg4 harg4 arg5 harg5 arg6 harg6 hc0 hc1 x0 x1 xs = k1_pay2 xs x0 x1 := by
  unfold out1_C
  rw [View.read_writes_eq_canon _ _ _ (cover1_C c i arg3 harg3 arg4 harg4 arg5 harg5 arg6 harg6 hc0 hc1 x0 x1 xs)]
  unfold kernelRun1_C
  dsimp only
  sl_unfold_words
  rw [View.canon_unit_zero (S := S2048x1024) hz2, View.readCov_unit_zero (S := S2048x1024) _ hz2]
  simp only [View.readAt_eq_ld, harg3.read_unread, harg4.read_unread, harg6.read_unread, View.ld_unit_zero (S := S2048x1024) hz2, View.ld_unit_zero (S := S1024x1024) hz2]

end Pieces

/-! ## The running tile, point by point -/

section Steps
variable {F : FTy → Type} [FloatOps F]
variable (V : (c : Dev nD) → (b : Ref sig .tc) → Buf (Elt F) ((c : Thread nD τ).loc b))

/-- After the first point of a group of four the running tile is that point's block product over zeros. -/
theorem acc_first (c : Dev nD) (t : Fin cfg1.N) (h0 : t.val % 4 = 0) :
    (outsAt1 V c t.val t.isLt).2 = k1_pay2 (k1_pay1 (F := F)) (iblk1 V c 0 t) (iblk1 V c 1 t) := by
  have h1 : ¬t.val % 4 = 3 := by omega
  rw [outsAt1_A V c t h0 h1]
  dsimp only
  exact sout1_A_eq c (grid1.coords t) (ms1_0 t) (hs1_0 t) (ms1_1 t) (hs1_1 t) (ms1_2 t) (hs1_2 t) scM1 (Memref.isWhole_whole cc1_scratch0) ((hcond1_0 t).mpr h0) (fun h => h1 ((hcond1_1 t).mp h)) (iblk1 V c 0 t) (iblk1 V c 1 t)

/-- After any later point of the group it is what the point before left plus this point's block product. -/
theorem acc_step (c : Dev nD) (t : Fin cfg1.N) (h0 : ¬t.val % 4 = 0) :
    (outsAt1 V c t.val t.isLt).2 = k1_pay2 (outsAt1 V c (t.val - 1) (Nat.lt_of_le_of_lt (Nat.sub_le _ _) t.isLt)).2 (iblk1 V c 0 t) (iblk1 V c 1 t) := by
  by_cases h1 : t.val % 4 = 3
  · rw [outsAt1_C V c t h0 h1]
    dsimp only
    exact sout1_C_eq c (grid1.coords t) (ms1_0 t) (hs1_0 t) (ms1_1 t) (hs1_1 t) (ms1_2 t) (hs1_2 t) scM1 (Memref.isWhole_whole cc1_scratch0) (fun h => h0 ((hcond1_0 t).mp h)) ((hcond1_1 t).mpr h1) (iblk1 V c 0 t) (iblk1 V c 1 t) (outsAt1 V c (t.val - 1) (Nat.lt_of_le_of_lt (Nat.sub_le _ _) t.isLt)).2
  · rw [outsAt1_B V c t h0 h1]
    dsimp only
    exact sout1_B_eq c (grid1.coords t) (ms1_0 t) (hs1_0 t) (ms1_1 t) (hs1_1 t) (ms1_2 t) (hs1_2 t) scM1 (Memref.isWhole_whole cc1_scratch0) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2

/-- At the last point of a group the output tile is stored with the same contents. -/
theorem out_last (c : Dev nD) (t : Fin cfg1.N) (h1 : t.val % 4 = 3) :
    (outsAt1 V c t.val t.isLt).1 = k1_pay2 (outsAt1 V c (t.val - 1) (Nat.lt_of_le_of_lt (Nat.sub_le _ _) t.isLt)).2 (iblk1 V c 0 t) (iblk1 V c 1 t) := by
  have h0 : ¬t.val % 4 = 0 := by omega
  rw [outsAt1_C V c t h0 h1]
  dsimp only
  exact out1_C_eq c (grid1.coords t) (ms1_0 t) (hs1_0 t) (ms1_1 t) (hs1_1 t) (ms1_2 t) (hs1_2 t) scM1 (Memref.isWhole_whole cc1_scratch0) (fun h => h0 ((hcond1_0 t).mp h)) ((hcond1_1 t).mpr h1) (iblk1 V c 0 t) (iblk1 V c 1 t) (outsAt1 V c (t.val - 1) (Nat.lt_of_le_of_lt (Nat.sub_le _ _) t.isLt)).2

end Steps

/-! ## At the ideal values: the tile a group of four points leaves, entry by entry -/

section Values
variable (V : (c : Dev nD) → (b : Ref sig .tc) → Buf (Elt Ideal) ((c : Thread nD τ).loc b))

/-- The input's block at point `t`, at its literal shape. -/
def blkX (c : Dev nD) (t : Fin cfg1.N) : Vec Ideal S2048x1024 .bf16 := iblk1 V c 0 t
/-- The merged weight's block at point `t`, at its literal shape. -/
def blkW (c : Dev nD) (t : Fin cfg1.N) : Vec Ideal S1024x1024 .bf16 := iblk1 V c 1 t

/-- The product of the two blocks of point `t` at entry (p, q): the sum over the 1024 contracted coordinates of the step. -/
def bsum (c : Dev nD) (t : Fin cfg1.N) (p : Fin 2048) (q : Fin 1024) : EReal :=
  ∑ kk : Fin 1024, blkX V c t (ix2 p kk) * blkW V c t (ix2 kk q)

theorem val_first (c : Dev nD) (t : Fin cfg1.N) (h0 : t.val % 4 = 0) (p : Fin 2048) (q : Fin 1024) :
    (outsAt1 V c t.val t.isLt).2 (ix2 p q) = 0 + bsum V c t p q :=
  ((congrFun (acc_first V c t h0) (ix2 p q)).trans
    (Cert.Lora.BodyValues.k1_pay2_apply (k1_pay1 (F := Ideal)) (iblk1 V c 0 t) (iblk1 V c 1 t) p q)).trans
    (congrArg (fun z => z + bsum V c t p q) (Cert.Lora.BodyValues.k1_pay1_apply (ix2 p q)))

theorem val_step (c : Dev nD) (t : Fin cfg1.N) (h0 : ¬t.val % 4 = 0) (p : Fin 2048) (q : Fin 1024) :
    (outsAt1 V c t.val t.isLt).2 (ix2 p q) = (outsAt1 V c (t.val - 1) (Nat.lt_of_le_of_lt (Nat.sub_le _ _) t.isLt)).2 (ix2 p q) + bsum V c t p q :=
  (congrFun (acc_step V c t h0) (ix2 p q)).trans
    (Cert.Lora.BodyValues.k1_pay2_apply (outsAt1 V c (t.val - 1) (Nat.lt_of_le_of_lt (Nat.sub_le _ _) t.isLt)).2 (iblk1 V c 0 t) (iblk1 V c 1 t) p q)

theorem val_last (c : Dev nD) (t : Fin cfg1.N) (h1 : t.val % 4 = 3) (p : Fin 2048) (q : Fin 1024) :
    (outsAt1 V c t.val t.isLt).1 (ix2 p q) = (outsAt1 V c (t.val - 1) (Nat.lt_of_le_of_lt (Nat.sub_le _ _) t.isLt)).2 (ix2 p q) + bsum V c t p q :=
  (congrFun (out_last V c t h1) (ix2 p q)).trans
    (Cert.Lora.BodyValues.k1_pay2_apply (outsAt1 V c (t.val - 1) (Nat.lt_of_le_of_lt (Nat.sub_le _ _) t.isLt)).2 (iblk1 V c 0 t) (iblk1 V c 1 t) p q)

/-- The output tile stored at the last point of a group: the four block products of the group added in the grid's order. -/
theorem val_group (c : Dev nD) (t : Fin cfg1.N) (h1 : t.val % 4 = 3) (p : Fin 2048) (q : Fin 1024) :
    (outsAt1 V c t.val t.isLt).1 (ix2 p q)
      = (((0 + bsum V c ⟨t.val - 1 - 1 - 1, by have := t.isLt; omega⟩ p q) + bsum V c ⟨t.val - 1 - 1, by have := t.isLt; omega⟩ p q)
          + bsum V c ⟨t.val - 1, by have := t.isLt; omega⟩ p q) + bsum V c t p q := by
  have hlt := t.isLt
  have e3 := val_last V c t h1 p q
  have e2 := val_step V c ⟨t.val - 1, by omega⟩ (by (try dsimp only); omega) p q
  have e1 := val_step V c ⟨t.val - 1 - 1, by omega⟩ (by (try dsimp only); omega) p q
  have e0 := val_first V c ⟨t.val - 1 - 1 - 1, by omega⟩ (by (try dsimp only); omega) p q
  exact e3.trans (congrArg (fun z => z + bsum V c t p q) (e2.trans (congrArg (fun z => z + bsum V c ⟨t.val - 1, by omega⟩ p q)
    (e1.trans (congrArg (fun z => z + bsum V c ⟨t.val - 1 - 1, by omega⟩ p q) e0)))))

end Values

/-! ## The blocks read through their arrays, and the four block products as the whole contraction -/

section Blocks
variable (V : (c : Dev nD) → (b : Ref sig .tc) → Buf (Elt Ideal) ((c : Thread nD τ).loc b))

/-- The three windows' block indices at point number `t`: the point is (t / 16, (t / 4) % 4, t % 4); the input's block is at
    (first, third), the merged weight's at (third, second), the output's at (first, second). Decided over the grid. -/
theorem block_index1 : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = t.val / 16 ∧ win1_2.index t (1 : Fin 2) = t.val / 4 % 4 :=
  (by decide +kernel : ∀ t : Fin grid1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = t.val / 16 ∧ win1_2.index t (1 : Fin 2) = t.val / 4 % 4)

/-- The input as the region finds it, at its literal shape. -/
def arrX (c : Dev nD) : S8192x4096.Idx → EReal := V c main_v2
/-- The merged weight as the region finds it, at its literal shape. -/
def arrW (c : Dev nD) : S4096x4096.Idx → EReal := V c main_v1

/-- Entry (p, kk) of the input's block at point `t` is the input at row 2048·(t / 16) + p, column 1024·(t % 4) + kk. -/
theorem blkX_apply (c : Dev nD) (t : Fin cfg1.N) (p : Fin 2048) (kk : Fin 1024) (r : Fin 8192) (k : Fin 4096)
    (hr : r.val = 2048 * (t.val / 16) + p.val) (hk : k.val = 1024 * (t.val % 4) + kk.val) :
    blkX V c t (ix2 p kk) = arrX V c (ix2 r k) := by
  obtain ⟨e0, e1, -, -, -, -⟩ := block_index1 t
  unfold blkX arrX iblk1
  rw [View.read_apply]
  show V c main_v2 _ = V c main_v2 _
  congr 1
  funext a
  apply Fin.ext
  match a with
  | ⟨0, _⟩ => show win1_0.index t 0 * 2048 + 1 * p.val = r.val; rw [e0, hr]; omega
  | ⟨1, _⟩ => show win1_0.index t 1 * 1024 + 1 * kk.val = k.val; rw [e1, hk]; omega

/-- Entry (kk, q) of the merged weight's block at point `t` is the weight at row 1024·(t % 4) + kk, column 1024·((t / 4) % 4) + q. -/
theorem blkW_apply (c : Dev nD) (t : Fin cfg1.N) (kk : Fin 1024) (q : Fin 1024) (k : Fin 4096) (col : Fin 4096)
    (hk : k.val = 1024 * (t.val % 4) + kk.val) (hc : col.val = 1024 * (t.val / 4 % 4) + q.val) :
    blkW V c t (ix2 kk q) = arrW V c (ix2 k col) := by
  obtain ⟨-, -, e2, e3, -, -⟩ := block_index1 t
  unfold blkW arrW iblk1
  rw [View.read_apply]
  show V c main_v1 _ = V c main_v1 _
  congr 1
  funext a
  apply Fin.ext
  match a with
  | ⟨0, _⟩ => show win1_1.index t 0 * 1024 + 1 * kk.val = k.val; rw [e2, hk]; omega
  | ⟨1, _⟩ => show win1_1.index t 1 * 1024 + 1 * q.val = col.val; rw [e3, hc]; omega

theorem h4 : 4 * 1024 = 4096 := by decide

/-- The block product of point `t` at (p, q) is the part of the contraction at (r, col) over the t % 4-th quarter of the
    contracted axis. -/
theorem bsum_eq (c : Dev nD) (t : Fin cfg1.N) (p : Fin 2048) (q : Fin 1024) (r : Fin 8192) (col : Fin 4096) (s : Fin 4)
    (hr : r.val = 2048 * (t.val / 16) + p.val) (hc : col.val = 1024 * (t.val / 4 % 4) + q.val) (hs : s.val = t.val % 4) :
    bsum V c t p q = ∑ kk : Fin 1024, arrX V c (ix2 r (TileSum.idx h4 s kk)) * arrW V c (ix2 (TileSum.idx h4 s kk) col) := by
  unfold bsum
  refine Finset.sum_congr rfl fun kk _ => ?_
  have hk : (TileSum.idx h4 s kk).val = 1024 * (t.val % 4) + kk.val := by rw [TileSum.idx_val, hs]; omega
  rw [blkX_apply V c t p kk r (TileSum.idx h4 s kk) hr hk, blkW_apply V c t kk q (TileSum.idx h4 s kk) col hk hc]

/-- Entry (r, col) of the product of the input with the merged weight. -/
def outEntry (c : Dev nD) (r : Fin 8192) (col : Fin 4096) : EReal :=
  ∑ k : Fin 4096, arrX V c (ix2 r k) * arrW V c (ix2 k col)

/-- The output tile stored at the last point of a group is the tile of that product: the four quarters of the contracted
    axis, added in order onto zero. -/
theorem tile_eq (c : Dev nD) (t : Fin cfg1.N) (h1 : t.val % 4 = 3) (p : Fin 2048) (q : Fin 1024) (r : Fin 8192) (col : Fin 4096)
    (hr : r.val = 2048 * (t.val / 16) + p.val) (hc : col.val = 1024 * (t.val / 4 % 4) + q.val) :
    (outsAt1 V c t.val t.isLt).1 (ix2 p q) = outEntry V c r col := by
  have hlt := t.isLt
  have hN : cfg1.N = 64 := N_1
  rw [val_group V c t h1 p q]
  rw [bsum_eq V c ⟨t.val - 1 - 1 - 1, by omega⟩ p q r col 0 (by (try dsimp only); omega) (by (try dsimp only); omega) (by (try dsimp only); omega),
    bsum_eq V c ⟨t.val - 1 - 1, by omega⟩ p q r col 1 (by (try dsimp only); omega) (by (try dsimp only); omega) (by (try dsimp only); omega),
    bsum_eq V c ⟨t.val - 1, by omega⟩ p q r col 2 (by (try dsimp only); omega) (by (try dsimp only); omega) (by (try dsimp only); omega),
    bsum_eq V c t p q r col 3 hr hc (by (try dsimp only); omega)]
  unfold outEntry
  rw [TileSum.sum_axis h4 (fun k => arrX V c (ix2 r k) * arrW V c (ix2 k col)), Fin.sum_univ_four, zero_add]

end Blocks

/-! ## From the tiles to the array -/

section Whole
variable (V : (c : Dev nD) → (b : Ref sig .tc) → Buf (Elt Ideal) ((c : Thread nD τ).loc b))

/-- The product of the input with the merged weight, as contents of the output array. -/
def prod (c : Dev nD) : S8192x4096.Idx → EReal := fun i => outEntry V c (i 0) (i 1)

/-- An entry of the tile stored at the last point of a group is the product's entry at the tile's place in the array. -/
theorem tile_entry1 (c : Dev nD) (t : Fin cfg1.N) (h1 : t.val % 4 = 3) (y : S2048x1024.Idx) (i : S8192x4096.Idx)
    (hi0 : (i 0).val = 2048 * (t.val / 16) + (y 0).val) (hi1 : (i 1).val = 1024 * (t.val / 4 % 4) + (y 1).val) :
    (outsAt1 V c t.val t.isLt).1 y = prod V c i := by
  obtain ⟨p, q, rfl⟩ : ∃ (p : Fin 2048) (q : Fin 1024), y = ix2 p q := ⟨y 0, y 1, eq_ix2 y⟩
  obtain ⟨r, col, rfl⟩ : ∃ (r : Fin 8192) (col : Fin 4096), i = ix2 r col := ⟨i 0, i 1, eq_ix2 i⟩
  exact tile_eq V c t h1 p q r col hi0 hi1

/-- What a point that writes the output back writes is its block of the product. -/
theorem flushed1 (c : Dev nD) (t : Fin cfg1.N) (hf : (cfg1.win 2).flush t = true) :
    (dat1 V c).flushed 2 t = ((cfg1.win 2).blk t).view.read (Elt Ideal) (prod V c) := by
  have h1 : t.val % 4 = 3 := (flush1_2 t).mp hf
  obtain ⟨-, -, -, -, e4, e5⟩ := block_index1 t
  show (cfg1.win 2).cut (grid1.coords t) ((dat1 V c).after 2 t) = _
  rw [after1_2]
  funext y
  show (outsAt1 V c t.val t.isLt).1 y = prod V c (((cfg1.win 2).blk t).view.emb y)
  refine tile_entry1 V c t h1 y (((cfg1.win 2).blk t).view.emb y) ?_ ?_
  · show win1_2.index t 0 * 2048 + 1 * (y 0).val = 2048 * (t.val / 16) + (y 0).val
    rw [e4]; omega
  · show win1_2.index t 1 * 1024 + 1 * (y 1).val = 1024 * (t.val / 4 % 4) + (y 1).val
    rw [e5]; omega

/-- An index of the output array is in point `t`'s block iff each coordinate is in the block's range on its axis. -/
theorem mem_block1 (t : Fin cfg1.N) (i : S8192x4096.Idx) :
    i ∈ ((cfg1.win 2).blk t).view.set ↔ ∀ a : Fin 2, win1_2.index t a * S2048x1024.size a ≤ (i a).val ∧ (i a).val < win1_2.index t a * S2048x1024.size a + S2048x1024.size a := by
  show i ∈ ((View.whole main_v3).slice (win1_2.rect t)).set ↔ _
  rw [View.set_slice_whole, Rect.mem_set_unit]
  exact Iff.rfl

/-- Every entry (r, col) of the output is written back: by the last point of the group of tile (r / 2048, col / 1024). -/
theorem covered1 (i : S8192x4096.Idx) :
    ∃ t : Fin cfg1.N, (cfg1.win 2).flush t = true ∧ i ∈ ((cfg1.win 2).blk t).view.set := by
  have hN : cfg1.N = 64 := N_1
  have hi0 : (i 0).val < 8192 := (i 0).isLt
  have hi1 : (i 1).val < 4096 := (i 1).isLt
  obtain ⟨t, ht⟩ : ∃ t : Fin cfg1.N, t.val = 16 * ((i 0).val / 2048) + 4 * ((i 1).val / 1024) + 3 := ⟨⟨_, by omega⟩, rfl⟩
  obtain ⟨-, -, -, -, e4, e5⟩ := block_index1 t
  refine ⟨t, (flush1_2 t).mpr (by omega), ?_⟩
  rw [mem_block1]
  intro a
  match a with
  | ⟨0, _⟩ =>
    show win1_2.index t 0 * 2048 ≤ (i 0).val ∧ (i 0).val < win1_2.index t 0 * 2048 + 2048
    rw [e4]; omega
  | ⟨1, _⟩ =>
    show win1_2.index t 1 * 1024 ≤ (i 1).val ∧ (i 1).val < win1_2.index t 1 * 1024 + 1024
    rw [e5]; omega

end Whole

end Cert.KernelIdeal.HandValue.Acc

namespace Cert.KernelIdeal.HandValue

open Idealize.ShloMosaic Idealize.ShloMosaic.TcCoe Idealize.ShloMosaic.ValueIdx
open Idealize.SL.Sem
open Cert.KernelIdeal Cert.KernelIdeal.Gen Cert.KernelIdeal.Hand

/-- THE SECOND REGION'S RESULT: the output array ends holding the product of the input with the merged weight, both as
    the region finds them: entry (r, col) is the sum over the 4096 contracted coordinates. -/
theorem final1 (V : (c : Dev nD) → (b : Ref sig .tc) → Buf (Elt Ideal) ((c : Thread nD τ).loc b)) (c : Dev nD) :
    (Cert.KernelIdeal.Hand.dat1 (F := Ideal) V c).arrAt 2 cfg1.N
      = fun i : S8192x4096.Idx => ∑ k : Fin 4096, Acc.arrX V c (ix2 (i 0) k) * Acc.arrW V c (ix2 k (i 1)) :=
  (Cert.KernelIdeal.Hand.dat1 (F := Ideal) V c).arrAt_eq_of_cover 2 (Acc.prod V c) (Acc.flushed1 V c) Acc.covered1

end Cert.KernelIdeal.HandValue

end
-- ==== Proof.Spec.lean ====
/-
  The function both programs compute, entry by entry, on the extended reals.

  A low-rank update is merged into a weight matrix and the input is multiplied by the result:
  the merged weight's entry (i, j) is  orig(i, j) + Σ_r (u(i, r) · s(r)) · vt(r, j)  over the sixteen ranks r,
  and the output's entry (p, j) is  Σ_k x(p, k) · weight(k, j)  over the 4096 input features k.
  Nothing here needs the entries to be finite: only sums and products are formed, in one fixed arrangement.
-/
import Idealize.ShloMosaic.PureOps.Ideal
import Idealize.ShloMosaic.Lib.ValueIdx

noncomputable section

namespace Cert.Lora

open Idealize.ShloMosaic Idealize.ShloMosaic.ValueIdx

/-- Entry (i, j) of the merged weight: the original entry plus the rank-16 correction, each column of `u` scaled by
    its entry of `s` before it meets `vt`. -/
def weight (orig : (⟨2, ![4096, 4096]⟩ : Shape).Idx → EReal) (u : (⟨2, ![4096, 16]⟩ : Shape).Idx → EReal)
    (s : (⟨1, ![16]⟩ : Shape).Idx → EReal) (vt : (⟨2, ![16, 4096]⟩ : Shape).Idx → EReal) (i j : Fin 4096) : EReal :=
  orig (ix2 i j) + ∑ r : Fin 16, (u (ix2 i r) * s (ix1 r)) * vt (ix2 r j)

/-- Entry (p, j) of the output: row p of the input against column j of the merged weight. -/
def outAt (x : (⟨2, ![8192, 4096]⟩ : Shape).Idx → EReal) (orig : (⟨2, ![4096, 4096]⟩ : Shape).Idx → EReal)
    (u : (⟨2, ![4096, 16]⟩ : Shape).Idx → EReal) (s : (⟨1, ![16]⟩ : Shape).Idx → EReal)
    (vt : (⟨2, ![16, 4096]⟩ : Shape).Idx → EReal) (p : Fin 8192) (j : Fin 4096) : EReal :=
  ∑ k : Fin 4096, x (ix2 p k) * weight orig u s vt k j

/-- The whole output array. -/
def out (x : (⟨2, ![8192, 4096]⟩ : Shape).Idx → EReal) (orig : (⟨2, ![4096, 4096]⟩ : Shape).Idx → EReal)
    (u : (⟨2, ![4096, 16]⟩ : Shape).Idx → EReal) (s : (⟨1, ![16]⟩ : Shape).Idx → EReal)
    (vt : (⟨2, ![16, 4096]⟩ : Shape).Idx → EReal) : (⟨2, ![8192, 4096]⟩ : Shape).Idx → EReal :=
  fun i => outAt x orig u s vt (i 0) (i 1)

end Cert.Lora

end
-- ==== Proof.Bridge.lean ====
/-
  The kernel's result array is the specification of the launch arguments.

  The second region leaves the product of the converted input with the weight the first region wrote; that weight is
  the merged weight of the arguments, the scales read through their row layout; and converting the input to the
  narrow format changes no ideal value. Entry by entry this is the specification's double sum.
-/
import proofs.«139498_j1829656068759_2_alg».proof.Proof.HostSteps
import proofs.«139498_j1829656068759_2_alg».proof.Proof.Region0Value
import proofs.«139498_j1829656068759_2_alg».proof.Proof.Region1Value
import proofs.«139498_j1829656068759_2_alg».proof.Proof.BodyValues
import proofs.«139498_j1829656068759_2_alg».proof.Proof.Spec

set_option maxRecDepth 16384

noncomputable section

namespace Cert.KernelIdeal.HandValue
open Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The product of an input with a merged weight, when the input's entries are the argument's, the weight is the
    merged weight over a row of scales, and the row's entries are the scales': the specification's output. -/
theorem out_of_parts (x : S8192x4096.Idx → EReal) (orig : S4096x4096.Idx → EReal) (u : S4096x16.Idx → EReal)
    (s : S16.Idx → EReal) (vt : S16x4096.Idx → EReal) (xb : S8192x4096.Idx → EReal) (w : S4096x4096.Idx → EReal)
    (s2 : S1x16.Idx → EReal) (hx : ∀ i, xb i = x i) (hw : w = tileW orig u s2 vt)
    (hs : ∀ r : Fin 16, s2 (ix2 (0 : Fin 1) r) = s (ix1 r)) :
    (fun i : S8192x4096.Idx => ∑ k : Fin 4096, xb (ix2 (i 0) k) * w (ix2 k (i 1))) = Cert.Lora.out x orig u s vt := by
  funext i
  unfold Cert.Lora.out Cert.Lora.outAt
  refine Finset.sum_congr rfl fun k _ => ?_
  rw [hx, hw]
  unfold tileW Cert.Lora.weight
  show x (ix2 (i 0) k) * (orig (ix2 k (i 1)) + ∑ r : Fin 16, (u (ix2 k r) * s2 (ix2 (0 : Fin 1) r)) * vt (ix2 r (i 1))) = _
  simp only [hs]

variable {F : FTy → Type} [FloatOps F]

variable (m : (ℓ : Loc nD τ sig) → Buf (Elt Ideal) ℓ) (c : Dev nD)

theorem result_eq :
    (dat1 (F := Ideal) (V3 m) c).arrAt 2 cfg1.N
      = Cert.Lora.out (m ((c : Thread nD τ).loc main_arg0)) (m ((c : Thread nD τ).loc main_arg1)) (m ((c : Thread nD τ).loc main_arg2)) (m ((c : Thread nD τ).loc main_arg3)) (m ((c : Thread nD τ).loc main_arg4)) := by
  refine (final1 (V3 m) c).trans ?_
  refine out_of_parts (m ((c : Thread nD τ).loc main_arg0)) (m ((c : Thread nD τ).loc main_arg1)) (m ((c : Thread nD τ).loc main_arg2))
    (m ((c : Thread nD τ).loc main_arg3)) (m ((c : Thread nD τ).loc main_arg4)) (Hand.V3 m c main_v2) (Hand.V3 m c main_v1) (Hand.V1 m c main_v0) ?_ ?_ ?_
  · intro i
    rw [V3_input]
    exact Cert.Lora.BodyValues.truncf_bf16_apply _ _ i
  · rw [V3_weight, final0, V1_of_launch m c main_arg1 (by decide), V1_of_launch m c main_arg2 (by decide),
      V1_of_launch m c main_arg4 (by decide)]
  · intro r
    rw [V1_scales]
    exact Cert.Lora.BodyValues.reshape_row _ _ r

end Cert.KernelIdeal.HandValue

end
-- ==== Proof.RefValue.lean ====
/-
  The reference program computes the specification.

  The reference forms the scaled factor  u(i, r) · s(r)  (the vector s broadcast along the rows), multiplies it by vt,
  adds the original weight, and multiplies the input by the result. Read entry by entry, each stage is the
  corresponding piece of the specification: the inner product over the sixteen ranks is the correction term of the
  merged weight, and the outer product over the 4096 input features is the output entry. Nothing is re-associated:
  the sums and products appear in the specification in exactly the arrangement the reference forms them.
-/
import proofs.«139498_j1829656068759_2_alg».proof.Proof.Gen.ReferenceIdeal.Read
import proofs.«139498_j1829656068759_2_alg».proof.Proof.Spec

noncomputable section

namespace Cert.Lora.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The scaled factor at (k, r): the entry of u times the r-th entry of s (s is broadcast along the rows). -/
theorem ref_scaled (x2 : (⟨S4096x16, .f32⟩ : BufTy).Contents (Elt Ideal)) (x3 : (⟨S16, .f32⟩ : BufTy).Contents (Elt Ideal))
    (k : Fin 4096) (r : Fin 16) :
    val_main_v2 (F := Ideal) x2 x3 (ix2 k r) = x2 (ix2 k r) * x3 (ix1 r) := by
  have e : idx_main_v0 (idx_main_v1 (ix2 k r)) = ix1 r :=
    funext fun a => Fin.ext (by match a with | ⟨0, _⟩ => rfl)
  rw [val_main_v2_apply, val_main_v1_apply, val_main_v0_apply, Ideal.mulf_def, e]

/-- The merged weight at (k, j): the original entry plus the sum over the sixteen ranks. -/
theorem ref_weight (x1 : (⟨S4096x4096, .f32⟩ : BufTy).Contents (Elt Ideal)) (x2 : (⟨S4096x16, .f32⟩ : BufTy).Contents (Elt Ideal))
    (x3 : (⟨S16, .f32⟩ : BufTy).Contents (Elt Ideal)) (x4 : (⟨S16x4096, .f32⟩ : BufTy).Contents (Elt Ideal))
    (k j : Fin 4096) :
    val_main_v4 (F := Ideal) x1 x2 x3 x4 (ix2 k j) = Cert.Lora.weight x1 x2 x3 x4 k j := by
  rw [val_main_v4_apply, val_main_v3_apply, Ideal.addf_def]
  unfold Cert.Lora.weight
  congr 1
  refine Finset.sum_congr rfl fun r _ => ?_
  have el : lidx_main_v3 (ix2 k j) r = ix2 k r :=
    funext fun a => Fin.ext (by match a with | ⟨0, _⟩ => rfl | ⟨1, _⟩ => rfl)
  have er : ridx_main_v3 (ix2 k j) r = ix2 r j :=
    funext fun a => Fin.ext (by match a with | ⟨0, _⟩ => rfl | ⟨1, _⟩ => rfl)
  rw [el, er, ref_scaled]

/-- The reference's result is the specification's output array. -/
theorem ref_out (x0 : (⟨S8192x4096, .f32⟩ : BufTy).Contents (Elt Ideal)) (x1 : (⟨S4096x4096, .f32⟩ : BufTy).Contents (Elt Ideal))
    (x2 : (⟨S4096x16, .f32⟩ : BufTy).Contents (Elt Ideal)) (x3 : (⟨S16, .f32⟩ : BufTy).Contents (Elt Ideal))
    (x4 : (⟨S16x4096, .f32⟩ : BufTy).Contents (Elt Ideal)) :
    val_main_v5 (F := Ideal) x0 x1 x2 x3 x4 = Cert.Lora.out x0 x1 x2 x3 x4 := by
  funext i
  obtain ⟨p, j, rfl⟩ : ∃ (p : Fin 8192) (j : Fin 4096), i = ix2 p j := ⟨i 0, i 1, eq_ix2 i⟩
  rw [val_main_v5_apply]
  show _ = Cert.Lora.outAt x0 x1 x2 x3 x4 p j
  unfold Cert.Lora.outAt
  refine Finset.sum_congr rfl fun k _ => ?_
  have el : lidx_main_v5 (ix2 p j) k = ix2 p k :=
    funext fun a => Fin.ext (by match a with | ⟨0, _⟩ => rfl | ⟨1, _⟩ => rfl)
  have er : ridx_main_v5 (ix2 p j) k = ix2 k j :=
    funext fun a => Fin.ext (by match a with | ⟨0, _⟩ => rfl | ⟨1, _⟩ => rfl)
  rw [el, er, ref_weight]

end Cert.Lora.RefValue

end
-- ==== Proof.lean ====
/-
  A low-rank update merged into a weight matrix, and the input multiplied by the result: the kernel against its reference.

  Both programs compute, on the extended reals, out(p, j) = Σ_k x(p, k) · (orig(k, j) + Σ_r (u(k, r) · s(r)) · vt(r, j)).
  The kernel does it in two regions: the first writes the merged weight tile by tile (each tile one sum of the original
  tile and a rank-16 product); the second multiplies block by block, adding the four block products along the contracted
  axis into an accumulator that it clears at the first and copies out at the last. The reference forms the same two
  products whole. The two agree because a sum over 4096 indices is the sum of its four consecutive quarters, taken in
  order from zero; the changes of float format are the identity on the extended reals, and laying the scales out as a
  row does not change them. No step divides or distributes, so nothing needs the entries to be finite.
  Each program's frame (it runs to the end, faults nowhere, leaves its arguments as launched) is its run with the
  result forgotten; the idealization rewrote nothing.
-/
import proofs.«139498_j1829656068759_2_alg».proof.Defs
import proofs.«139498_j1829656068759_2_alg».proof.Proof.Gen.Kernel
import proofs.«139498_j1829656068759_2_alg».proof.Proof.Gen.KernelIdeal
import proofs.«139498_j1829656068759_2_alg».proof.Proof.Gen.ReferenceIdeal
import proofs.«139498_j1829656068759_2_alg».proof.Proof.Gen.ReferenceIdeal.Run
import proofs.«139498_j1829656068759_2_alg».proof.Proof.Gen.ReferenceIdeal.Read
import proofs.«139498_j1829656068759_2_alg».proof.Proof.Gen.Pre_finite_inputs
import proofs.«139498_j1829656068759_2_alg».proof.Proof.KRun
import proofs.«139498_j1829656068759_2_alg».proof.Proof.Run
import proofs.«139498_j1829656068759_2_alg».proof.Proof.Bridge
import proofs.«139498_j1829656068759_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched: its run, the result forgotten. -/
theorem frame_kernel : Cert.frame_Kernel := fun m ρ _ =>
  (θ_run Cert.Kernel.defs _ _).mono (fun _ h c => (h c).2) (Cert.Kernel.Hand.run_main (F := Bits) m ρ)

/-- The same for the kernel read on the extended reals. -/
theorem frame_kernelIdeal : Cert.frame_KernelIdeal := fun m ρ _ =>
  (θ_run Cert.KernelIdeal.defs _ _).mono (fun _ h c => (h c).2) (Cert.KernelIdeal.Hand.run_main (F := Ideal) m ρ)

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the result array at the same function of arguments that agree. -/
theorem algebraic : Cert.algebraic_KernelIdeal_ReferenceIdeal := by
  intro m ρ m' ρ' _ hagree
  refine ⟨fun c => Cert.Lora.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun _ h c => ⟨(h c).1.trans (Cert.KernelIdeal.HandValue.result_eq m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, Cert.Lora.RefValue.ref_out, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
